-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x4096x1024 .f32) (main_arg1 : IVec S8x4096 32) (main_arg2 : FVec F S8x1024x4096 .f32) (main_arg3 : FVec F S8x4096 .f32) (main_arg4 : FVec F S8x4096x1024 .f32) (main_arg5 : FVec F S8x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg3
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg5 main_v13 main_v16
-- ==== Kernel.lean ====
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S_ : Shape := ⟨0, ![]⟩
abbrev S32768x1024 : Shape := ⟨2, ![32768, 1024]⟩
abbrev S32768x2 : Shape := ⟨2, ![32768, 2]⟩
abbrev S8x1x4096 : Shape := ⟨3, ![8, 1, 4096]⟩
abbrev S8x1x1024 : Shape := ⟨3, ![8, 1, 1024]⟩
abbrev S1x256x1024 : Shape := ⟨3, ![1, 256, 1024]⟩
abbrev S1x1024x4096 : Shape := ⟨3, ![1, 1024, 4096]⟩
abbrev S1x1x4096 : Shape := ⟨3, ![1, 1, 4096]⟩
abbrev S1x4096x1024 : Shape := ⟨3, ![1, 4096, 1024]⟩
abbrev S1x1x1024 : Shape := ⟨3, ![1, 1, 1024]⟩
abbrev S256x1024 : Shape := ⟨2, ![256, 1024]⟩
abbrev S1024x4096 : Shape := ⟨2, ![1024, 4096]⟩
abbrev S256x4096 : Shape := ⟨2, ![256, 4096]⟩
abbrev S1x4096 : Shape := ⟨2, ![1, 4096]⟩
abbrev S4096x1024 : Shape := ⟨2, ![4096, 1024]⟩
abbrev S1x1024 : Shape := ⟨2, ![1, 1024]⟩

abbrev nBuf : Space → Nat
  | .hbm => 82
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S32768, .i32⟩
  | .hbm, ⟨7, _⟩ => ⟨S32768x1, .i32⟩
  | .hbm, ⟨8, _⟩ => ⟨S1x8, .i32⟩
  | .hbm, ⟨9, _⟩ => ⟨S32768x8, .i32⟩
  | .hbm, ⟨10, _⟩ => ⟨S32768x8, .i32⟩
  | .hbm, ⟨11, _⟩ => ⟨S32768x8, .i1⟩
  | .hbm, ⟨12, _⟩ => ⟨S32768x8, .i32⟩
  | .hbm, ⟨13, _⟩ => ⟨S_, .i32⟩
  | .hbm, ⟨14, _⟩ => ⟨S_, .i32⟩
  | .hbm, ⟨15, _⟩ => ⟨S32768x8, .i32⟩
  | .hbm, ⟨16, _⟩ => ⟨S_, .i32⟩
  | .hbm, ⟨17, _⟩ => ⟨S32768x8, .i32⟩
  | .hbm, ⟨18, _⟩ => ⟨S32768x8, .i32⟩
  | .hbm, ⟨19, _⟩ => ⟨S32768x8, .i32⟩
  | .hbm, ⟨20, _⟩ => ⟨S_, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768x1024, .f32⟩
  | .hbm, ⟨30, _⟩ => ⟨S32768, .f32⟩
  | .hbm, ⟨31, _⟩ => ⟨S_, .f32⟩
  | .hbm, ⟨32, _⟩ => ⟨S8x4096x1024, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x1, .i32⟩
  | .hbm, ⟨52, _⟩ => ⟨S32768x2, .i32⟩
  | .hbm, ⟨53, _⟩ => ⟨S8x4096x1024, .f32⟩
  | .hbm, ⟨54, _⟩ => ⟨S8x4096x1024, .bf16⟩
  | .hbm, ⟨55, _⟩ => ⟨S8x1024x4096, .bf16⟩
  | .hbm, ⟨56, _⟩ => ⟨S8x4096x1024, .bf16⟩
  | .hbm, ⟨57, _⟩ => ⟨S8x1x4096, .f32⟩
  | .hbm, ⟨58, _⟩ => ⟨S8x1x1024, .f32⟩
  | .hbm, ⟨59, _⟩ => ⟨S8x4096x1024, .f32⟩
  | .hbm, ⟨60, _⟩ => ⟨S_, .i32⟩
  | .hbm, ⟨61, _⟩ => ⟨S32768, .i32⟩
  | .hbm, ⟨62, _⟩ => ⟨S32768, .i1⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S32768, .i32⟩
  | .hbm, ⟨67, _⟩ => ⟨S_, .i32⟩
  | .hbm, ⟨68, _⟩ => ⟨S32768, .i32⟩
  | .hbm, ⟨69, _⟩ => ⟨S32768, .i1⟩
  | .hbm, ⟨70, _⟩ => ⟨S_, .i32⟩
  | .hbm, ⟨71, _⟩ => ⟨S32768, .i32⟩
  | .hbm, ⟨72, _⟩ => ⟨S32768, .i32⟩
  | .hbm, ⟨73, _⟩ => ⟨S32768, .i32⟩
  | .hbm, ⟨74, _⟩ => ⟨S32768x1, .i32⟩
  | .hbm, ⟨75, _⟩ => ⟨S32768x1, .i32⟩
  | .hbm, ⟨76, _⟩ => ⟨S32768x2, .i32⟩
  | .hbm, ⟨77, _⟩ => ⟨S32768x1024, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S8x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S1x1x4096, .f32⟩
  | .local _ .vmem, ⟨4, _⟩ => ⟨S1x1x4096, .f32⟩
  | .local _ .vmem, ⟨5, _⟩ => ⟨S1x4096x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_call1_call0_c : Ref sig .tc := ⟨.hbm, 13, rfl⟩
abbrev main_call1_call0_v0 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call2_v0 : Ref sig .tc := ⟨.hbm, 26, rfl⟩
abbrev main_call2_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x4096_S32768 : S8x4096.ShapeCasts S32768
  bcast_S32768_S32768x1_0 : S32768.BroadcastsInDim S32768x1 (![0] : Fin 1 → Fin S32768x1.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  bcast_S_S_ : S_.BroadcastsInDim S_ (![] : Fin 0 → Fin S_.rank)
  reduceWindows_S32768x8_S32768x8_w32768s1p32767_0_w1s1p0_0 : S32768x8.ReduceWindows (![32768, 1] : Fin 2 → Nat) ![1, 1] ![32767, 0] ![0, 0] S32768x8
  h_S_ : 0 < S_.numel
  bcast_S_S32768x8 : S_.BroadcastsInDim S32768x8 (![] : Fin 0 → Fin S32768x8.rank)
  reducesTo_S32768x8_S32768_d1 : S32768x8.ReducesTo [1] S32768
  bcast_S_S32768 : S_.BroadcastsInDim S32768 (![] : Fin 0 → Fin S32768.rank)
  shapeCasts_S8x4096x1024_S32768x1024 : S8x4096x1024.ShapeCasts S32768x1024
  bcast_S_S8x4096x1024 : S_.BroadcastsInDim S8x4096x1024 (![] : Fin 0 → Fin S8x4096x1024.rank)
  bcast_S32768x1_S32768x1024_0_1 : S32768x1.BroadcastsInDim S32768x1024 (![0, 1] : Fin 2 → Fin S32768x1024.rank)
  concatenates_S32768x1_S32768x1_S32768x2_d1 : Shape.Concatenates [S32768x1, S32768x1] S32768x2 1
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  broadcasts_S1x4096_S256x4096 : S1x4096.Broadcasts S256x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  shapeCasts_S256x1024_S1x256x1024 : S256x1024.ShapeCasts S1x256x1024
  shapeCasts_S32768x1024_S8x4096x1024 : S32768x1024.ShapeCasts S8x4096x1024
  scatter_S8x4096x1024_S32768x2_S32768x1024_1_01_01_1_wf : ScatterDims.WF S8x4096x1024 S32768x2 S32768x1024 [1] [0, 1] [0, 1] 1
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  gather_S8x4096x1024_S32768x2_S32768x1024_1_01_n_n_01_1_111024_wf : GatherDims.WF S8x4096x1024 S32768x2 S32768x1024 [1] [0, 1] [] [0, 1] [] 1 ![1, 1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .bf16 = 32 ∨ (Rect.block (s := S8x4096x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x4096x1024.size a
  hwx0_5 : ∀ i : grid0.Coords, EltTy.bits .f32 = 32 ∨ (Rect.block (s := S8x4096x1024) S1x256x1024.size (cc0_transform_5 i) (hinb0_5 i)).WholeWords (EltTy.packing .f32)

variable [Facts₀]

def scatter_S8x4096x1024_S32768x2_S32768x1024_1_01_01_1 : ScatterDims S8x4096x1024 S32768x2 S32768x1024 where
  updateWindowDims := [1]
  insertedWindowDims := [0, 1]
  scatterDimsToOperandDims := [0, 1]
  indexVectorDim := 1
  wf := scatter_S8x4096x1024_S32768x2_S32768x1024_1_01_01_1_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def gather_S8x4096x1024_S32768x2_S32768x1024_1_01_n_n_01_1_111024 : GatherDims S8x4096x1024 S32768x2 S32768x1024 where
  offsetDims := [1]
  collapsedSliceDims := [0, 1]
  operandBatchingDims := []
  startIndicesBatchingDims := []
  startIndexMap := [0, 1]
  indexVectorDim := 1
  sliceSizes := ![1, 1, 1024]
  wf := gather_S8x4096x1024_S32768x2_S32768x1024_1_01_n_n_01_1_111024_wf

abbrev win0_0 : Pipeline.Window sig grid0 :=
  Pipeline.Window.ofSpec (Memref.whole main_v30) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S_ : Shape := ⟨0, ![]⟩
abbrev S32768x1024 : Shape := ⟨2, ![32768, 1024]⟩
abbrev S32768x2 : Shape := ⟨2, ![32768, 2]⟩
abbrev S8x4096x4096 : Shape := ⟨3, ![8, 4096, 4096]⟩
abbrev S8x1x4096 : Shape := ⟨3, ![8, 1, 4096]⟩
abbrev S8x1x1024 : Shape := ⟨3, ![8, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x1024x4096, .f32⟩
  | .hbm, ⟨3, _⟩ => ⟨S8x4096, .f32⟩
  | .hbm, ⟨4, _⟩ => ⟨S8x4096x1024, .f32⟩
  | .hbm, ⟨5, _⟩ => ⟨S8x1024, .f32⟩
  | .hbm, ⟨6, _⟩ => ⟨S32768, .i32⟩
  | .hbm, ⟨7, _⟩ => ⟨S32768x1, .i32⟩
  | .hbm, ⟨8, _⟩ => ⟨S1x8, .i32⟩
  | .hbm, ⟨9, _⟩ => ⟨S32768x8, .i32⟩
  | .hbm, ⟨10, _⟩ => ⟨S32768x8, .i32⟩
  | .hbm, ⟨11, _⟩ => ⟨S32768x8, .i1⟩
  | .hbm, ⟨12, _⟩ => ⟨S32768x8, .i32⟩
  | .hbm, ⟨13, _⟩ => ⟨S_, .i32⟩
  | .hbm, ⟨14, _⟩ => ⟨S_, .i32⟩
  | .hbm, ⟨15, _⟩ => ⟨S32768x8, .i32⟩
  | .hbm, ⟨16, _⟩ => ⟨S_, .i32⟩
  | .hbm, ⟨17, _⟩ => ⟨S32768x8, .i32⟩
  | .hbm, ⟨18, _⟩ => ⟨S32768x8, .i32⟩
  | .hbm, ⟨19, _⟩ => ⟨S32768x8, .i32⟩
  | .hbm, ⟨20, _⟩ => ⟨S_, .i32⟩
  | .hbm, ⟨21, _⟩ => ⟨S32768, .i32⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S_, .i32⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768x1024, .f32⟩
  | .hbm, ⟨30, _⟩ => ⟨S32768, .f32⟩
  | .hbm, ⟨31, _⟩ => ⟨S_, .f32⟩
  | .hbm, ⟨32, _⟩ => ⟨S8x4096x1024, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S_, .i32⟩
  | .hbm, ⟨44, _⟩ => ⟨S32768, .i32⟩
  | .hbm, ⟨45, _⟩ => ⟨S32768, .i1⟩
  | .hbm, ⟨46, _⟩ => ⟨S_, .i32⟩
  | .hbm, ⟨47, _⟩ => ⟨S32768, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S32768x1, .i32⟩
  | .hbm, ⟨52, _⟩ => ⟨S32768x2, .i32⟩
  | .hbm, ⟨53, _⟩ => ⟨S8x4096x1024, .f32⟩
  | .hbm, ⟨54, _⟩ => ⟨S8x4096x4096, .f32⟩
  | .hbm, ⟨55, _⟩ => ⟨S8x1x4096, .f32⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S8x4096x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S_, .i32⟩
  | .hbm, ⟨66, _⟩ => ⟨S32768, .i32⟩
  | .hbm, ⟨67, _⟩ => ⟨S32768, .i1⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S32768, .i32⟩
  | .hbm, ⟨72, _⟩ => ⟨S_, .i32⟩
  | .hbm, ⟨73, _⟩ => ⟨S32768, .i32⟩
  | .hbm, ⟨74, _⟩ => ⟨S32768, .i1⟩
  | .hbm, ⟨75, _⟩ => ⟨S_, .i32⟩
  | .hbm, ⟨76, _⟩ => ⟨S32768, .i32⟩
  | .hbm, ⟨77, _⟩ => ⟨S32768, .i32⟩
  | .hbm, ⟨78, _⟩ => ⟨S32768, .i32⟩
  | .hbm, ⟨79, _⟩ => ⟨S32768x1, .i32⟩
  | .hbm, ⟨80, _⟩ => ⟨S32768x1, .i32⟩
  | .hbm, ⟨81, _⟩ => ⟨S32768x2, .i32⟩
  | .hbm, ⟨82, _⟩ => ⟨S32768x1024, .f32⟩
  | .hbm, ⟨83, _⟩ => ⟨S32768x1, .f32⟩
  | .hbm, ⟨84, _⟩ => ⟨S32768x1024, .f32⟩
  | .hbm, ⟨85, _⟩ => ⟨S32768x1024, .f32⟩
  | .hbm, ⟨86, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_call1_call0_c : Ref sig .tc := ⟨.hbm, 13, rfl⟩
abbrev main_call1_call0_v0 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call2_v0 : Ref sig .tc := ⟨.hbm, 26, rfl⟩
abbrev main_call2_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call3_cst : Ref sig .tc := ⟨.hbm, 58, rfl⟩
abbrev main_call3_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_7 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  shapeCasts_S8x4096_S32768 : S8x4096.ShapeCasts S32768
  bcast_S32768_S32768x1_0 : S32768.BroadcastsInDim S32768x1 (![0] : Fin 1 → Fin S32768x1.rank)
  bcast_S32768x1_S32768x8_0_1 : S32768x1.BroadcastsInDim S32768x8 (![0, 1] : Fin 2 → Fin S32768x8.rank)
  bcast_S1x8_S32768x8_0_1 : S1x8.BroadcastsInDim S32768x8 (![0, 1] : Fin 2 → Fin S32768x8.rank)
  natLt_1_32 : 1 < 32
  bcast_S_S_ : S_.BroadcastsInDim S_ (![] : Fin 0 → Fin S_.rank)
  reduceWindows_S32768x8_S32768x8_w32768s1p32767_0_w1s1p0_0 : S32768x8.ReduceWindows (![32768, 1] : Fin 2 → Nat) ![1, 1] ![32767, 0] ![0, 0] S32768x8
  h_S_ : 0 < S_.numel
  bcast_S_S32768x8 : S_.BroadcastsInDim S32768x8 (![] : Fin 0 → Fin S32768x8.rank)
  reducesTo_S32768x8_S32768_d1 : S32768x8.ReducesTo [1] S32768
  bcast_S_S32768 : S_.BroadcastsInDim S32768 (![] : Fin 0 → Fin S32768.rank)
  shapeCasts_S8x4096x1024_S32768x1024 : S8x4096x1024.ShapeCasts S32768x1024
  bcast_S_S8x4096x1024 : S_.BroadcastsInDim S8x4096x1024 (![] : Fin 0 → Fin S8x4096x1024.rank)
  bcast_S32768x1_S32768x1024_0_1 : S32768x1.BroadcastsInDim S32768x1024 (![0, 1] : Fin 2 → Fin S32768x1024.rank)
  concatenates_S32768x1_S32768x1_S32768x2_d1 : Shape.Concatenates [S32768x1, S32768x1] S32768x2 1
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  shapeCasts_S32768x1024_S8x4096x1024 : S32768x1024.ShapeCasts S8x4096x1024
  scatter_S8x4096x1024_S32768x2_S32768x1024_1_01_01_1_wf : ScatterDims.WF S8x4096x1024 S32768x2 S32768x1024 [1] [0, 1] [0, 1] 1
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]
  gather_S8x4096x1024_S32768x2_S32768x1024_1_01_n_n_01_1_111024_wf : GatherDims.WF S8x4096x1024 S32768x2 S32768x1024 [1] [0, 1] [] [0, 1] [] 1 ![1, 1, 1024]

variable [Facts₀]

def scatter_S8x4096x1024_S32768x2_S32768x1024_1_01_01_1 : ScatterDims S8x4096x1024 S32768x2 S32768x1024 where
  updateWindowDims := [1]
  insertedWindowDims := [0, 1]
  scatterDimsToOperandDims := [0, 1]
  indexVectorDim := 1
  wf := scatter_S8x4096x1024_S32768x2_S32768x1024_1_01_01_1_wf
def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf
def gather_S8x4096x1024_S32768x2_S32768x1024_1_01_n_n_01_1_111024 : GatherDims S8x4096x1024 S32768x2 S32768x1024 where
  offsetDims := [1]
  collapsedSliceDims := [0, 1]
  operandBatchingDims := []
  startIndicesBatchingDims := []
  startIndexMap := [0, 1]
  indexVectorDim := 1
  sliceSizes := ![1, 1, 1024]
  wf := gather_S8x4096x1024_S32768x2_S32768x1024_1_01_n_n_01_1_111024_wf

class Facts : Prop extends Facts₀ where

variable [Facts]
-- ==== Proof.HostFfn.lean ====
/-
  The reference's feed-forward stretch as ONE term of its operands: for each expert `e` and each of its
  capacity slots `r`, `y[e, r, :] = max (x[e, r, :] · W1[e] + b1[e], 0) · W2[e] + b2[e]`, written with the host's
  batched `dot_general` (batch axis 0, the left operand's last axis contracted with the right operand's middle
  one), the two biases spread over the slot axis, and the clamp at the zero word.
-/
import proofs.«115585_j5566277615661_1_alg».proof.ReferenceIdeal
import proofs.«115585_j5566277615661_1_alg».proof.Proof.Gen.ReferenceIdeal

noncomputable section

namespace Cert.ReferenceIdeal.HostFfn

open Cert.ReferenceIdeal Idealize.ShloMosaic Idealize.ShloMosaic.TcCoe

variable {F : FTy → Type} [FloatOps F] [Facts]
open Facts₀ Facts

/-- Bias `b : [8, n]` spread over the slot axis: `[8, n] → [8, 1, n] → [8, 4096, n]`, at `n = 4096`. -/
def spread1 (b1 : (⟨S8x4096, .f32⟩ : BufTy).Contents (Elt F)) : (⟨S8x4096x4096, .f32⟩ : BufTy).Contents (Elt F) :=
  broadcastInDim S8x4096x4096 ![0, 1, 2] bcast_S8x1x4096_S8x4096x4096_0_1_2
    (broadcastInDim S8x1x4096 ![0, 2] bcast_S8x4096_S8x1x4096_0_2 b1)

/-- The same at `n = 1024`. -/
def spread2 (b2 : (⟨S8x1024, .f32⟩ : BufTy).Contents (Elt F)) : (⟨S8x4096x1024, .f32⟩ : BufTy).Contents (Elt F) :=
  broadcastInDim S8x4096x1024 ![0, 1, 2] bcast_S8x1x1024_S8x4096x1024_0_1_2
    (broadcastInDim S8x1x1024 ![0, 2] bcast_S8x1024_S8x1x1024_0_2 b2)

/-- The hidden layer: `max (x · W1 + b1, 0)`. -/
def hidden (x : (⟨S8x4096x1024, .f32⟩ : BufTy).Contents (Elt F)) (w1 : (⟨S8x1024x4096, .f32⟩ : BufTy).Contents (Elt F))
    (b1 : (⟨S8x4096, .f32⟩ : BufTy).Contents (Elt F)) : (⟨S8x4096x4096, .f32⟩ : BufTy).Contents (Elt F) :=
  maximumf (addf (Host.dotGeneral dot_S8x4096x1024_S8x1024x4096_S8x4096x4096_2_1_1_2_0_0 none x w1) (spread1 b1))
    (broadcastInDim S8x4096x4096 ![] bcast_S_S8x4096x4096 (constant S_ .f32 0x00000000#32))

/-- The whole stretch: `hidden · W2 + b2`. -/
def ffnHost (x : (⟨S8x4096x1024, .f32⟩ : BufTy).Contents (Elt F)) (w1 : (⟨S8x1024x4096, .f32⟩ : BufTy).Contents (Elt F))
    (b1 : (⟨S8x4096, .f32⟩ : BufTy).Contents (Elt F)) (w2 : (⟨S8x4096x1024, .f32⟩ : BufTy).Contents (Elt F))
    (b2 : (⟨S8x1024, .f32⟩ : BufTy).Contents (Elt F)) : (⟨S8x4096x1024, .f32⟩ : BufTy).Contents (Elt F) :=
  addf (Host.dotGeneral dot_S8x4096x4096_S8x4096x1024_S8x4096x1024_2_1_1_2_0_0 none (hidden x w1 b1) w2) (spread2 b2)

end Cert.ReferenceIdeal.HostFfn

end
-- ==== Proof.RefRun.lean ====
/-
  The reference's @main as ONE straight line of host operations, and its run read back.

  @main is printed in two windows and calls four outlined functions (@_one_hot, @cumsum — which itself calls
  @cumsum_0 —, @_where, @relu). Substituting each callee's body at its call, over the buffers that call names, gives a
  line of 81 operations: 48 that compute the dispatch (`opsPre`: expert ids, one-hot, running count, slot positions,
  keep mask, scatter-add into the experts' slots), 11 of the feed-forward stretch (`opsMid`: two batched products, each
  with its bias spread over the slot axis, a clamp at zero between them), and 22 of the combine (`opsTail`: the slot
  coordinates again, the gather back to token order, the mask, the final reshape).

  `main_eq`: @main is that line (window by window, cut at every call so that each side's sequencing is compared item by
  item; then the items' lists concatenated). `run`: from any memory with zero counters every weakly fair execution
  terminates and each buffer ends at the fold of the operations' results over its launch contents (`after ops`).
  The fold splits along the three parts (`after_split`); no operation writes an argument (`after_argK`, `pre_argK`);
  the middle part leaves the dispatch's outputs alone (`mid_v0`, `mid_v9`, `mid_v11`) and writes at %38 the
  feed-forward term of its five operands (`mid_v38`).
-/
import proofs.«115585_j5566277615661_1_alg».proof.ReferenceIdeal
import proofs.«115585_j5566277615661_1_alg».proof.Proof.Gen.ReferenceIdeal
import proofs.«115585_j5566277615661_1_alg».proof.Proof.HostFfn
import Idealize.ShloMosaic.Lib.StableHlo.Run
import Idealize.ShloMosaic.Lib.Pipeline.Regions

noncomputable section

namespace Cert.ReferenceIdeal.HostRun

open Cert.ReferenceIdeal Idealize.ShloMosaic Idealize.ShloMosaic.TcCoe Idealize.SL.Sem Idealize.ShloMosaic.StableHlo

variable {F : FTy → Type} [FloatOps F] [Facts]
open Facts₀ Facts

/-! ## The line, item by item

One item per maximal stretch of @main's own operations and one per call, in order. -/

/-- %0: the expert ids flattened. -/
abbrev item0 : List (HloOp τ sig (Elt F)) :=
  [ StableHlo.reshape main_arg1 main_v0 rfl shapeCasts_S8x4096_S32768 ]

/-- @_one_hot's six operations over the buffers of its one call. -/
abbrev item1 : List (HloOp τ sig (Elt F)) :=
  [ StableHlo.TRef.unary (.of main_v0 : StableHlo.TRef sig ⟨S32768, .i32⟩) (.of main_call0_v0 : StableHlo.TRef sig ⟨S32768x1, .i32⟩) (broadcastInDim S32768x1 ![0] bcast_S32768_S32768x1_0),
    StableHlo.TRef.nullary (.of main_call0_v1 : StableHlo.TRef sig ⟨S1x8, .i32⟩) (iotaInDim S1x8 32 1),
    StableHlo.TRef.unary (.of main_call0_v0 : StableHlo.TRef sig ⟨S32768x1, .i32⟩) (.of main_call0_v2 : StableHlo.TRef sig ⟨S32768x8, .i32⟩) (broadcastInDim S32768x8 ![0, 1] bcast_S32768x1_S32768x8_0_1),
    StableHlo.TRef.unary (.of main_call0_v1 : StableHlo.TRef sig ⟨S1x8, .i32⟩) (.of main_call0_v3 : StableHlo.TRef sig ⟨S32768x8, .i32⟩) (broadcastInDim S32768x8 ![0, 1] bcast_S1x8_S32768x8_0_1),
    StableHlo.TRef.binary (.of main_call0_v2 : StableHlo.TRef sig ⟨S32768x8, .i32⟩) (.of main_call0_v3 : StableHlo.TRef sig ⟨S32768x8, .i32⟩) (.of main_call0_v4 : StableHlo.TRef sig ⟨S32768x8, .i1⟩) (cmpi .eq),
    StableHlo.TRef.unary (.of main_call0_v4 : StableHlo.TRef sig ⟨S32768x8, .i1⟩) (.of main_v1 : StableHlo.TRef sig ⟨S32768x8, .i32⟩) (extui 32 · natLt_1_32) ]

/-- @cumsum's call of @cumsum_0: the zero, its broadcast, the windowed sum down the token axis. -/
abbrev item2 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v1 : StableHlo.TRef sig ⟨S32768x8, .i32⟩) (.of main_call1_call0_v0 : StableHlo.TRef sig ⟨S_, .i32⟩) (.of main_v2 : StableHlo.TRef sig ⟨S32768x8, .i32⟩) (fun x v => Host.reduceWindow IntOp.addi ![32768, 1] ![1, 1] ![32767, 0] ![0, 0] x v reduceWindows_S32768x8_S32768x8_w32768s1p32767_0_w1s1p0_0 h_S_) ]

/-- %c … %c_2: the slot position of each token within its expert and the keep mask. -/
abbrev item3 : List (HloOp τ sig (Elt F)) :=
  [ StableHlo.nullary main_c (constantI S_ 32 1#32),
    StableHlo.unary main_c main_v3 (broadcastInDim S32768x8 ![] bcast_S_S32768x8 : (⟨S_, .i32⟩ : BufTy).Contents (Elt F) → (⟨S32768x8, .i32⟩ : BufTy).Contents (Elt F)),
    StableHlo.binary main_v2 main_v3 main_v4 (subi : (⟨S32768x8, .i32⟩ : BufTy).Contents (Elt F) → (⟨S32768x8, .i32⟩ : BufTy).Contents (Elt F) → (⟨S32768x8, .i32⟩ : BufTy).Contents (Elt F)),
    StableHlo.binary main_v4 main_v1 main_v5 (muli : (⟨S32768x8, .i32⟩ : BufTy).Contents (Elt F) → (⟨S32768x8, .i32⟩ : BufTy).Contents (Elt F) → (⟨S32768x8, .i32⟩ : BufTy).Contents (Elt F)),
    StableHlo.nullary main_c_0 (constantI S_ 32 0#32),
    StableHlo.binary main_v5 main_c_0 main_v6 ((fun x v => Host.reduce IntOp.addi x v reducesTo_S32768x8_S32768_d1 h_S_) : (⟨S32768x8, .i32⟩ : BufTy).Contents (Elt F) → (⟨S_, .i32⟩ : BufTy).Contents (Elt F) → (⟨S32768, .i32⟩ : BufTy).Contents (Elt F)),
    StableHlo.nullary main_c_1 (constantI S_ 32 4096#32),
    StableHlo.unary main_c_1 main_v7 (broadcastInDim S32768 ![] bcast_S_S32768 : (⟨S_, .i32⟩ : BufTy).Contents (Elt F) → (⟨S32768, .i32⟩ : BufTy).Contents (Elt F)),
    StableHlo.binary main_v6 main_v7 main_v8 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 0#32) ]

/-- @_where's three operations over the buffers of its one call. -/
abbrev item4 : List (HloOp τ sig (Elt F)) :=
  [ StableHlo.TRef.unary (.of main_c_2 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.ternary (.of main_v8 : StableHlo.TRef sig ⟨S32768, .i1⟩) (.of main_v6 : StableHlo.TRef sig ⟨S32768, .i32⟩) (.of main_call2_v1 : StableHlo.TRef sig ⟨S32768, .i32⟩) (.of main_v9 : StableHlo.TRef sig ⟨S32768, .i32⟩) select ]

/-- %10 … %33: the masked tokens scattered into the experts' slots, then the first batched product and its bias. -/
abbrev item5 : List (HloOp τ sig (Elt F)) :=
  [ StableHlo.reshape main_arg0 main_v10 rfl shapeCasts_S8x4096x1024_S32768x1024,
    StableHlo.unary main_v8 main_v11 (uitofp .f32 : (⟨S32768, .i1⟩ : BufTy).Contents (Elt F) → (⟨S32768, .f32⟩ : BufTy).Contents (Elt F)),
    StableHlo.nullary main_cst (constant S_ .f32 0x00000000#32),
    StableHlo.unary main_cst main_v12 (broadcastInDim S8x4096x1024 ![] bcast_S_S8x4096x1024 : (⟨S_, .f32⟩ : BufTy).Contents (Elt F) → (⟨S8x4096x1024, .f32⟩ : BufTy).Contents (Elt F)),
    StableHlo.unary main_v11 main_v13 (broadcastInDim S32768x1 ![0] bcast_S32768_S32768x1_0 : (⟨S32768, .f32⟩ : BufTy).Contents (Elt F) → (⟨S32768x1, .f32⟩ : BufTy).Contents (Elt F)),
    StableHlo.unary main_v13 main_v14 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v10 main_v14 main_v15 (mulf : (⟨S32768x1024, .f32⟩ : BufTy).Contents (Elt F) → (⟨S32768x1024, .f32⟩ : BufTy).Contents (Elt F) → (⟨S32768x1024, .f32⟩ : BufTy).Contents (Elt F)),
    StableHlo.nullary main_c_3 (constantI S_ 32 0#32),
    StableHlo.unary main_c_3 main_v16 (broadcastInDim S32768 ![] bcast_S_S32768 : (⟨S_, .i32⟩ : BufTy).Contents (Elt F) → (⟨S32768, .i32⟩ : BufTy).Contents (Elt F)),
    StableHlo.binary main_v0 main_v16 main_v17 (cmpi .slt : (⟨S32768, .i32⟩ : BufTy).Contents (Elt F) → (⟨S32768, .i32⟩ : BufTy).Contents (Elt F) → (⟨S32768, .i1⟩ : BufTy).Contents (Elt F)),
    StableHlo.nullary main_c_4 (constantI S_ 32 8#32),
    StableHlo.unary main_c_4 main_v18 (broadcastInDim S32768 ![] bcast_S_S32768 : (⟨S_, .i32⟩ : BufTy).Contents (Elt F) → (⟨S32768, .i32⟩ : BufTy).Contents (Elt F)),
    StableHlo.binary main_v0 main_v18 main_v19 (addi : (⟨S32768, .i32⟩ : BufTy).Contents (Elt F) → (⟨S32768, .i32⟩ : BufTy).Contents (Elt F) → (⟨S32768, .i32⟩ : BufTy).Contents (Elt F)),
    StableHlo.ternary main_v17 main_v19 main_v0 main_v20 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_5 (constantI S_ 32 0#32),
    StableHlo.unary main_c_5 main_v21 (broadcastInDim S32768 ![] bcast_S_S32768 : (⟨S_, .i32⟩ : BufTy).Contents (Elt F) → (⟨S32768, .i32⟩ : BufTy).Contents (Elt F)),
    StableHlo.binary main_v9 main_v21 main_v22 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 4096#32),
    StableHlo.unary main_c_6 main_v23 (broadcastInDim S32768 ![] bcast_S_S32768 : (⟨S_, .i32⟩ : BufTy).Contents (Elt F) → (⟨S32768, .i32⟩ : BufTy).Contents (Elt F)),
    StableHlo.binary main_v9 main_v23 main_v24 (addi : (⟨S32768, .i32⟩ : BufTy).Contents (Elt F) → (⟨S32768, .i32⟩ : BufTy).Contents (Elt F) → (⟨S32768, .i32⟩ : BufTy).Contents (Elt F)),
    StableHlo.ternary main_v22 main_v24 main_v9 main_v25 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v20 main_v26 (broadcastInDim S32768x1 ![0] bcast_S32768_S32768x1_0 : (⟨S32768, .i32⟩ : BufTy).Contents (Elt F) → (⟨S32768x1, .i32⟩ : BufTy).Contents (Elt F)),
    StableHlo.unary main_v25 main_v27 (broadcastInDim S32768x1 ![0] bcast_S32768_S32768x1_0 : (⟨S32768, .i32⟩ : BufTy).Contents (Elt F) → (⟨S32768x1, .i32⟩ : BufTy).Contents (Elt F)),
    StableHlo.binary main_v26 main_v27 main_v28 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v12 main_v28 main_v15 main_v29 ((fun x i u => Host.scatterAdd scatter_S8x4096x1024_S32768x2_S32768x1024_1_01_01_1 x i u) : (⟨S8x4096x1024, .f32⟩ : BufTy).Contents (Elt F) → (⟨S32768x2, .i32⟩ : BufTy).Contents (Elt F) → (⟨S32768x1024, .f32⟩ : BufTy).Contents (Elt F) → (⟨S8x4096x1024, .f32⟩ : BufTy).Contents (Elt F)),
    StableHlo.binary main_v29 main_arg2 main_v30 ((fun l r => Host.dotGeneral dot_S8x4096x1024_S8x1024x4096_S8x4096x4096_2_1_1_2_0_0 none l r) : (⟨S8x4096x1024, .f32⟩ : BufTy).Contents (Elt F) → (⟨S8x1024x4096, .f32⟩ : BufTy).Contents (Elt F) → (⟨S8x4096x4096, .f32⟩ : BufTy).Contents (Elt F)),
    StableHlo.unary main_arg3 main_v31 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v31 main_v32 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v30 main_v32 main_v33 (addf : (⟨S8x4096x4096, .f32⟩ : BufTy).Contents (Elt F) → (⟨S8x4096x4096, .f32⟩ : BufTy).Contents (Elt F) → (⟨S8x4096x4096, .f32⟩ : BufTy).Contents (Elt F)) ]

/-- @relu's three operations over the buffers of its one call. -/
abbrev item6 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8x4096x4096, .f32⟩) (broadcastInDim S8x4096x4096 ![] bcast_S_S8x4096x4096),
    StableHlo.TRef.binary (.of main_v33 : StableHlo.TRef sig ⟨S8x4096x4096, .f32⟩) (.of main_call3_v0 : StableHlo.TRef sig ⟨S8x4096x4096, .f32⟩) (.of main_v34 : StableHlo.TRef sig ⟨S8x4096x4096, .f32⟩) maximumf ]

/-- %35 … %46: the second batched product and its bias, then the head of the combine tail. -/
abbrev item7 : List (HloOp τ sig (Elt F)) :=
  [ StableHlo.binary main_v34 main_arg4 main_v35 ((fun l r => Host.dotGeneral dot_S8x4096x4096_S8x4096x1024_S8x4096x1024_2_1_1_2_0_0 none l r) : (⟨S8x4096x4096, .f32⟩ : BufTy).Contents (Elt F) → (⟨S8x4096x1024, .f32⟩ : BufTy).Contents (Elt F) → (⟨S8x4096x1024, .f32⟩ : BufTy).Contents (Elt F)),
    StableHlo.unary main_arg5 main_v36 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_v36 main_v37 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    StableHlo.binary main_v35 main_v37 main_v38 (addf : (⟨S8x4096x1024, .f32⟩ : BufTy).Contents (Elt F) → (⟨S8x4096x1024, .f32⟩ : BufTy).Contents (Elt F) → (⟨S8x4096x1024, .f32⟩ : BufTy).Contents (Elt F)),
    StableHlo.nullary main_c_7 (constantI S_ 32 0#32),
    StableHlo.unary main_c_7 main_v39 (broadcastInDim S32768 ![] bcast_S_S32768 : (⟨S_, .i32⟩ : BufTy).Contents (Elt F) → (⟨S32768, .i32⟩ : BufTy).Contents (Elt F)),
    StableHlo.binary main_v0 main_v39 main_v40 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 8#32),
    StableHlo.unary main_c_8 main_v41 (broadcastInDim S32768 ![] bcast_S_S32768 : (⟨S_, .i32⟩ : BufTy).Contents (Elt F) → (⟨S32768, .i32⟩ : BufTy).Contents (Elt F)),
    StableHlo.binary main_v0 main_v41 main_v42 (addi : (⟨S32768, .i32⟩ : BufTy).Contents (Elt F) → (⟨S32768, .i32⟩ : BufTy).Contents (Elt F) → (⟨S32768, .i32⟩ : BufTy).Contents (Elt F)),
    StableHlo.ternary main_v40 main_v42 main_v0 main_v43 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_9 (constantI S_ 32 0#32),
    StableHlo.unary main_c_9 main_v44 (broadcastInDim S32768 ![] bcast_S_S32768 : (⟨S_, .i32⟩ : BufTy).Contents (Elt F) → (⟨S32768, .i32⟩ : BufTy).Contents (Elt F)),
    StableHlo.binary main_v9 main_v44 main_v45 (cmpi .slt : (⟨S32768, .i32⟩ : BufTy).Contents (Elt F) → (⟨S32768, .i32⟩ : BufTy).Contents (Elt F) → (⟨S32768, .i1⟩ : BufTy).Contents (Elt F)),
    StableHlo.nullary main_c_10 (constantI S_ 32 4096#32),
    StableHlo.unary main_c_10 main_v46 (broadcastInDim S32768 ![] bcast_S_S32768 : (⟨S_, .i32⟩ : BufTy).Contents (Elt F) → (⟨S32768, .i32⟩ : BufTy).Contents (Elt F)) ]

/-- %47 … %56: the rest of the combine tail. -/
abbrev item8 : List (HloOp τ sig (Elt F)) :=
  [ StableHlo.binary main_v9 main_v46 main_v47 (addi : (⟨S32768, .i32⟩ : BufTy).Contents (Elt F) → (⟨S32768, .i32⟩ : BufTy).Contents (Elt F) → (⟨S32768, .i32⟩ : BufTy).Contents (Elt F)),
    StableHlo.ternary main_v45 main_v47 main_v9 main_v48 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v43 main_v49 (broadcastInDim S32768x1 ![0] bcast_S32768_S32768x1_0 : (⟨S32768, .i32⟩ : BufTy).Contents (Elt F) → (⟨S32768x1, .i32⟩ : BufTy).Contents (Elt F)),
    StableHlo.unary main_v48 main_v50 (broadcastInDim S32768x1 ![0] bcast_S32768_S32768x1_0 : (⟨S32768, .i32⟩ : BufTy).Contents (Elt F) → (⟨S32768x1, .i32⟩ : BufTy).Contents (Elt F)),
    StableHlo.binary main_v49 main_v50 main_v51 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v38 main_v51 main_v52 ((fun x i => Host.gather gather_S8x4096x1024_S32768x2_S32768x1024_1_01_n_n_01_1_111024 x i) : (⟨S8x4096x1024, .f32⟩ : BufTy).Contents (Elt F) → (⟨S32768x2, .i32⟩ : BufTy).Contents (Elt F) → (⟨S32768x1024, .f32⟩ : BufTy).Contents (Elt F)),
    StableHlo.unary main_v11 main_v53 (broadcastInDim S32768x1 ![0] bcast_S32768_S32768x1_0 : (⟨S32768, .f32⟩ : BufTy).Contents (Elt F) → (⟨S32768x1, .f32⟩ : BufTy).Contents (Elt F)),
    StableHlo.unary main_v53 main_v54 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v52 main_v54 main_v55 (mulf : (⟨S32768x1024, .f32⟩ : BufTy).Contents (Elt F) → (⟨S32768x1024, .f32⟩ : BufTy).Contents (Elt F) → (⟨S32768x1024, .f32⟩ : BufTy).Contents (Elt F)),
    StableHlo.reshape main_v55 main_v56 rfl shapeCasts_S32768x1024_S8x4096x1024 ]

/-- The first window is the items 0 … 7 in order, the last in tail position. -/
theorem main_part0_chain (c : Dev nD) : main_part0 (F := F) c = (Pipeline.chainK
  [ seq item0, seq item1, seq item2, seq item3, seq item4, seq item5, seq item6 ]
  (seq item7) : Prog (TpuEff nD τ sig (Elt F) (Pipeline.Sig Λ₀ (Fin 0) fun p => (pcfgs (F := F) p).Adm) .tc) PUnit) := by
  chain_rfl

/-- The last window is item 8 and the return. -/
theorem main_part1_chain (c : Dev nD) : main_part1 (F := F) c = (Pipeline.chain
  [ seq item8 ] : Prog (TpuEff nD τ sig (Elt F) (Pipeline.Sig Λ₀ (Fin 0) fun p => (pcfgs (F := F) p).Adm) .tc) PUnit) := by
  chain_rfl

/-- @main is the nine items in order. -/
theorem main_chain (c : Dev nD) : main (F := F) c = (Pipeline.chain
  [ seq item0, seq item1, seq item2, seq item3, seq item4, seq item5, seq item6, seq item7, seq item8 ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  rfl

/-! ## The line in three parts -/

/-- %0 … %29: the dispatch, the callees' operations at their calls. -/
abbrev opsPre : List (HloOp τ sig (Elt F)) :=
  [ StableHlo.reshape main_arg1 main_v0 rfl shapeCasts_S8x4096_S32768,
    StableHlo.TRef.unary (.of main_v0 : StableHlo.TRef sig ⟨S32768, .i32⟩) (.of main_call0_v0 : StableHlo.TRef sig ⟨S32768x1, .i32⟩) (broadcastInDim S32768x1 ![0] bcast_S32768_S32768x1_0),
    StableHlo.TRef.nullary (.of main_call0_v1 : StableHlo.TRef sig ⟨S1x8, .i32⟩) (iotaInDim S1x8 32 1),
    StableHlo.TRef.unary (.of main_call0_v0 : StableHlo.TRef sig ⟨S32768x1, .i32⟩) (.of main_call0_v2 : StableHlo.TRef sig ⟨S32768x8, .i32⟩) (broadcastInDim S32768x8 ![0, 1] bcast_S32768x1_S32768x8_0_1),
    StableHlo.TRef.unary (.of main_call0_v1 : StableHlo.TRef sig ⟨S1x8, .i32⟩) (.of main_call0_v3 : StableHlo.TRef sig ⟨S32768x8, .i32⟩) (broadcastInDim S32768x8 ![0, 1] bcast_S1x8_S32768x8_0_1),
    StableHlo.TRef.binary (.of main_call0_v2 : StableHlo.TRef sig ⟨S32768x8, .i32⟩) (.of main_call0_v3 : StableHlo.TRef sig ⟨S32768x8, .i32⟩) (.of main_call0_v4 : StableHlo.TRef sig ⟨S32768x8, .i1⟩) (cmpi .eq),
    StableHlo.TRef.unary (.of main_call0_v4 : StableHlo.TRef sig ⟨S32768x8, .i1⟩) (.of main_v1 : StableHlo.TRef sig ⟨S32768x8, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v1 : StableHlo.TRef sig ⟨S32768x8, .i32⟩) (.of main_call1_call0_v0 : StableHlo.TRef sig ⟨S_, .i32⟩) (.of main_v2 : StableHlo.TRef sig ⟨S32768x8, .i32⟩) (fun x v => Host.reduceWindow IntOp.addi ![32768, 1] ![1, 1] ![32767, 0] ![0, 0] x v reduceWindows_S32768x8_S32768x8_w32768s1p32767_0_w1s1p0_0 h_S_),
    StableHlo.nullary main_c (constantI S_ 32 1#32),
    StableHlo.unary main_c main_v3 (broadcastInDim S32768x8 ![] bcast_S_S32768x8 : (⟨S_, .i32⟩ : BufTy).Contents (Elt F) → (⟨S32768x8, .i32⟩ : BufTy).Contents (Elt F)),
    StableHlo.binary main_v2 main_v3 main_v4 (subi : (⟨S32768x8, .i32⟩ : BufTy).Contents (Elt F) → (⟨S32768x8, .i32⟩ : BufTy).Contents (Elt F) → (⟨S32768x8, .i32⟩ : BufTy).Contents (Elt F)),
    StableHlo.binary main_v4 main_v1 main_v5 (muli : (⟨S32768x8, .i32⟩ : BufTy).Contents (Elt F) → (⟨S32768x8, .i32⟩ : BufTy).Contents (Elt F) → (⟨S32768x8, .i32⟩ : BufTy).Contents (Elt F)),
    StableHlo.nullary main_c_0 (constantI S_ 32 0#32),
    StableHlo.binary main_v5 main_c_0 main_v6 ((fun x v => Host.reduce IntOp.addi x v reducesTo_S32768x8_S32768_d1 h_S_) : (⟨S32768x8, .i32⟩ : BufTy).Contents (Elt F) → (⟨S_, .i32⟩ : BufTy).Contents (Elt F) → (⟨S32768, .i32⟩ : BufTy).Contents (Elt F)),
    StableHlo.nullary main_c_1 (constantI S_ 32 4096#32),
    StableHlo.unary main_c_1 main_v7 (broadcastInDim S32768 ![] bcast_S_S32768 : (⟨S_, .i32⟩ : BufTy).Contents (Elt F) → (⟨S32768, .i32⟩ : BufTy).Contents (Elt F)),
    StableHlo.binary main_v6 main_v7 main_v8 (cmpi .slt : (⟨S32768, .i32⟩ : BufTy).Contents (Elt F) → (⟨S32768, .i32⟩ : BufTy).Contents (Elt F) → (⟨S32768, .i1⟩ : BufTy).Contents (Elt F)),
    StableHlo.nullary main_c_2 (constantI S_ 32 0#32),
    StableHlo.TRef.unary (.of main_c_2 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.ternary (.of main_v8 : StableHlo.TRef sig ⟨S32768, .i1⟩) (.of main_v6 : StableHlo.TRef sig ⟨S32768, .i32⟩) (.of main_call2_v1 : StableHlo.TRef sig ⟨S32768, .i32⟩) (.of main_v9 : StableHlo.TRef sig ⟨S32768, .i32⟩) select,
    StableHlo.reshape main_arg0 main_v10 rfl shapeCasts_S8x4096x1024_S32768x1024,
    StableHlo.unary main_v8 main_v11 (uitofp .f32 : (⟨S32768, .i1⟩ : BufTy).Contents (Elt F) → (⟨S32768, .f32⟩ : BufTy).Contents (Elt F)),
    StableHlo.nullary main_cst (constant S_ .f32 0x00000000#32),
    StableHlo.unary main_cst main_v12 (broadcastInDim S8x4096x1024 ![] bcast_S_S8x4096x1024 : (⟨S_, .f32⟩ : BufTy).Contents (Elt F) → (⟨S8x4096x1024, .f32⟩ : BufTy).Contents (Elt F)),
    StableHlo.unary main_v11 main_v13 (broadcastInDim S32768x1 ![0] bcast_S32768_S32768x1_0 : (⟨S32768, .f32⟩ : BufTy).Contents (Elt F) → (⟨S32768x1, .f32⟩ : BufTy).Contents (Elt F)),
    StableHlo.unary main_v13 main_v14 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v10 main_v14 main_v15 (mulf : (⟨S32768x1024, .f32⟩ : BufTy).Contents (Elt F) → (⟨S32768x1024, .f32⟩ : BufTy).Contents (Elt F) → (⟨S32768x1024, .f32⟩ : BufTy).Contents (Elt F)),
    StableHlo.nullary main_c_3 (constantI S_ 32 0#32),
    StableHlo.unary main_c_3 main_v16 (broadcastInDim S32768 ![] bcast_S_S32768 : (⟨S_, .i32⟩ : BufTy).Contents (Elt F) → (⟨S32768, .i32⟩ : BufTy).Contents (Elt F)),
    StableHlo.binary main_v0 main_v16 main_v17 (cmpi .slt : (⟨S32768, .i32⟩ : BufTy).Contents (Elt F) → (⟨S32768, .i32⟩ : BufTy).Contents (Elt F) → (⟨S32768, .i1⟩ : BufTy).Contents (Elt F)),
    StableHlo.nullary main_c_4 (constantI S_ 32 8#32),
    StableHlo.unary main_c_4 main_v18 (broadcastInDim S32768 ![] bcast_S_S32768 : (⟨S_, .i32⟩ : BufTy).Contents (Elt F) → (⟨S32768, .i32⟩ : BufTy).Contents (Elt F)),
    StableHlo.binary main_v0 main_v18 main_v19 (addi : (⟨S32768, .i32⟩ : BufTy).Contents (Elt F) → (⟨S32768, .i32⟩ : BufTy).Contents (Elt F) → (⟨S32768, .i32⟩ : BufTy).Contents (Elt F)),
    StableHlo.ternary main_v17 main_v19 main_v0 main_v20 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_5 (constantI S_ 32 0#32),
    StableHlo.unary main_c_5 main_v21 (broadcastInDim S32768 ![] bcast_S_S32768 : (⟨S_, .i32⟩ : BufTy).Contents (Elt F) → (⟨S32768, .i32⟩ : BufTy).Contents (Elt F)),
    StableHlo.binary main_v9 main_v21 main_v22 (cmpi .slt : (⟨S32768, .i32⟩ : BufTy).Contents (Elt F) → (⟨S32768, .i32⟩ : BufTy).Contents (Elt F) → (⟨S32768, .i1⟩ : BufTy).Contents (Elt F)),
    StableHlo.nullary main_c_6 (constantI S_ 32 4096#32),
    StableHlo.unary main_c_6 main_v23 (broadcastInDim S32768 ![] bcast_S_S32768 : (⟨S_, .i32⟩ : BufTy).Contents (Elt F) → (⟨S32768, .i32⟩ : BufTy).Contents (Elt F)),
    StableHlo.binary main_v9 main_v23 main_v24 (addi : (⟨S32768, .i32⟩ : BufTy).Contents (Elt F) → (⟨S32768, .i32⟩ : BufTy).Contents (Elt F) → (⟨S32768, .i32⟩ : BufTy).Contents (Elt F)),
    StableHlo.ternary main_v22 main_v24 main_v9 main_v25 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v20 main_v26 (broadcastInDim S32768x1 ![0] bcast_S32768_S32768x1_0 : (⟨S32768, .i32⟩ : BufTy).Contents (Elt F) → (⟨S32768x1, .i32⟩ : BufTy).Contents (Elt F)),
    StableHlo.unary main_v25 main_v27 (broadcastInDim S32768x1 ![0] bcast_S32768_S32768x1_0 : (⟨S32768, .i32⟩ : BufTy).Contents (Elt F) → (⟨S32768x1, .i32⟩ : BufTy).Contents (Elt F)),
    StableHlo.binary main_v26 main_v27 main_v28 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.ternary main_v12 main_v28 main_v15 main_v29 ((fun x i u => Host.scatterAdd scatter_S8x4096x1024_S32768x2_S32768x1024_1_01_01_1 x i u) : (⟨S8x4096x1024, .f32⟩ : BufTy).Contents (Elt F) → (⟨S32768x2, .i32⟩ : BufTy).Contents (Elt F) → (⟨S32768x1024, .f32⟩ : BufTy).Contents (Elt F) → (⟨S8x4096x1024, .f32⟩ : BufTy).Contents (Elt F)) ]

/-- %30 … %38: the feed-forward stretch, @relu's operations at its call. -/
abbrev opsMid : List (HloOp τ sig (Elt F)) :=
  [ StableHlo.binary main_v29 main_arg2 main_v30 ((fun l r => Host.dotGeneral dot_S8x4096x1024_S8x1024x4096_S8x4096x4096_2_1_1_2_0_0 none l r) : (⟨S8x4096x1024, .f32⟩ : BufTy).Contents (Elt F) → (⟨S8x1024x4096, .f32⟩ : BufTy).Contents (Elt F) → (⟨S8x4096x4096, .f32⟩ : BufTy).Contents (Elt F)),
    StableHlo.unary main_arg3 main_v31 (broadcastInDim S8x1x4096 ![0, 2] bcast_S8x4096_S8x1x4096_0_2 : (⟨S8x4096, .f32⟩ : BufTy).Contents (Elt F) → (⟨S8x1x4096, .f32⟩ : BufTy).Contents (Elt F)),
    StableHlo.unary main_v31 main_v32 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    StableHlo.binary main_v30 main_v32 main_v33 (addf : (⟨S8x4096x4096, .f32⟩ : BufTy).Contents (Elt F) → (⟨S8x4096x4096, .f32⟩ : BufTy).Contents (Elt F) → (⟨S8x4096x4096, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8x4096x4096, .f32⟩) (broadcastInDim S8x4096x4096 ![] bcast_S_S8x4096x4096),
    StableHlo.TRef.binary (.of main_v33 : StableHlo.TRef sig ⟨S8x4096x4096, .f32⟩) (.of main_call3_v0 : StableHlo.TRef sig ⟨S8x4096x4096, .f32⟩) (.of main_v34 : StableHlo.TRef sig ⟨S8x4096x4096, .f32⟩) maximumf,
    StableHlo.binary main_v34 main_arg4 main_v35 ((fun l r => Host.dotGeneral dot_S8x4096x4096_S8x4096x1024_S8x4096x1024_2_1_1_2_0_0 none l r) : (⟨S8x4096x4096, .f32⟩ : BufTy).Contents (Elt F) → (⟨S8x4096x1024, .f32⟩ : BufTy).Contents (Elt F) → (⟨S8x4096x1024, .f32⟩ : BufTy).Contents (Elt F)),
    StableHlo.unary main_arg5 main_v36 (broadcastInDim S8x1x1024 ![0, 2] bcast_S8x1024_S8x1x1024_0_2 : (⟨S8x1024, .f32⟩ : BufTy).Contents (Elt F) → (⟨S8x1x1024, .f32⟩ : BufTy).Contents (Elt F)),
    StableHlo.unary main_v36 main_v37 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    StableHlo.binary main_v35 main_v37 main_v38 (addf : (⟨S8x4096x1024, .f32⟩ : BufTy).Contents (Elt F) → (⟨S8x4096x1024, .f32⟩ : BufTy).Contents (Elt F) → (⟨S8x4096x1024, .f32⟩ : BufTy).Contents (Elt F)) ]

/-- %c_7 … %56: the combine. -/
abbrev opsTail : List (HloOp τ sig (Elt F)) :=
  [ StableHlo.nullary main_c_7 (constantI S_ 32 0#32),
    StableHlo.unary main_c_7 main_v39 (broadcastInDim S32768 ![] bcast_S_S32768 : (⟨S_, .i32⟩ : BufTy).Contents (Elt F) → (⟨S32768, .i32⟩ : BufTy).Contents (Elt F)),
    StableHlo.binary main_v0 main_v39 main_v40 (cmpi .slt : (⟨S32768, .i32⟩ : BufTy).Contents (Elt F) → (⟨S32768, .i32⟩ : BufTy).Contents (Elt F) → (⟨S32768, .i1⟩ : BufTy).Contents (Elt F)),
    StableHlo.nullary main_c_8 (constantI S_ 32 8#32),
    StableHlo.unary main_c_8 main_v41 (broadcastInDim S32768 ![] bcast_S_S32768 : (⟨S_, .i32⟩ : BufTy).Contents (Elt F) → (⟨S32768, .i32⟩ : BufTy).Contents (Elt F)),
    StableHlo.binary main_v0 main_v41 main_v42 (addi : (⟨S32768, .i32⟩ : BufTy).Contents (Elt F) → (⟨S32768, .i32⟩ : BufTy).Contents (Elt F) → (⟨S32768, .i32⟩ : BufTy).Contents (Elt F)),
    StableHlo.ternary main_v40 main_v42 main_v0 main_v43 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.nullary main_c_9 (constantI S_ 32 0#32),
    StableHlo.unary main_c_9 main_v44 (broadcastInDim S32768 ![] bcast_S_S32768 : (⟨S_, .i32⟩ : BufTy).Contents (Elt F) → (⟨S32768, .i32⟩ : BufTy).Contents (Elt F)),
    StableHlo.binary main_v9 main_v44 main_v45 (cmpi .slt : (⟨S32768, .i32⟩ : BufTy).Contents (Elt F) → (⟨S32768, .i32⟩ : BufTy).Contents (Elt F) → (⟨S32768, .i1⟩ : BufTy).Contents (Elt F)),
    StableHlo.nullary main_c_10 (constantI S_ 32 4096#32),
    StableHlo.unary main_c_10 main_v46 (broadcastInDim S32768 ![] bcast_S_S32768 : (⟨S_, .i32⟩ : BufTy).Contents (Elt F) → (⟨S32768, .i32⟩ : BufTy).Contents (Elt F)),
    StableHlo.binary main_v9 main_v46 main_v47 (addi : (⟨S32768, .i32⟩ : BufTy).Contents (Elt F) → (⟨S32768, .i32⟩ : BufTy).Contents (Elt F) → (⟨S32768, .i32⟩ : BufTy).Contents (Elt F)),
    StableHlo.ternary main_v45 main_v47 main_v9 main_v48 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    StableHlo.unary main_v43 main_v49 (broadcastInDim S32768x1 ![0] bcast_S32768_S32768x1_0 : (⟨S32768, .i32⟩ : BufTy).Contents (Elt F) → (⟨S32768x1, .i32⟩ : BufTy).Contents (Elt F)),
    StableHlo.unary main_v48 main_v50 (broadcastInDim S32768x1 ![0] bcast_S32768_S32768x1_0 : (⟨S32768, .i32⟩ : BufTy).Contents (Elt F) → (⟨S32768x1, .i32⟩ : BufTy).Contents (Elt F)),
    StableHlo.binary main_v49 main_v50 main_v51 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    StableHlo.binary main_v38 main_v51 main_v52 ((fun x i => Host.gather gather_S8x4096x1024_S32768x2_S32768x1024_1_01_n_n_01_1_111024 x i) : (⟨S8x4096x1024, .f32⟩ : BufTy).Contents (Elt F) → (⟨S32768x2, .i32⟩ : BufTy).Contents (Elt F) → (⟨S32768x1024, .f32⟩ : BufTy).Contents (Elt F)),
    StableHlo.unary main_v11 main_v53 (broadcastInDim S32768x1 ![0] bcast_S32768_S32768x1_0 : (⟨S32768, .f32⟩ : BufTy).Contents (Elt F) → (⟨S32768x1, .f32⟩ : BufTy).Contents (Elt F)),
    StableHlo.unary main_v53 main_v54 (broadcastInDim S32768x1024 ![0, 1] bcast_S32768x1_S32768x1024_0_1 : (⟨S32768x1, .f32⟩ : BufTy).Contents (Elt F) → (⟨S32768x1024, .f32⟩ : BufTy).Contents (Elt F)),
    StableHlo.binary main_v52 main_v54 main_v55 (mulf : (⟨S32768x1024, .f32⟩ : BufTy).Contents (Elt F) → (⟨S32768x1024, .f32⟩ : BufTy).Contents (Elt F) → (⟨S32768x1024, .f32⟩ : BufTy).Contents (Elt F)),
    StableHlo.reshape main_v55 main_v56 rfl shapeCasts_S32768x1024_S8x4096x1024 ]

/-- @main's 81 operations, in order. -/
abbrev ops : List (HloOp τ sig (Elt F)) := opsPre ++ (opsMid ++ opsTail)

/-- The three parts are the nine items concatenated. -/
theorem ops_eq_items : (ops : List (HloOp τ sig (Elt F)))
    = item0 ++ (item1 ++ (item2 ++ (item3 ++ (item4 ++ (item5 ++ (item6 ++ (item7 ++ (item8 ++ [])))))))) := rfl

/-- Lines run one after the other, then the return, are their concatenation run as one. -/
theorem chain_items : (Pipeline.chain
    [ seq item0, seq item1, seq item2, seq item3, seq item4, seq item5, seq item6, seq item7, seq item8 ] : Prog (TpuEff nD τ sig (Elt F) (Pipeline.Sig Λ₀ (Fin 0) fun p => (pcfgs (F := F) p).Adm) .tc) PUnit)
    = seq (item0 ++ (item1 ++ (item2 ++ (item3 ++ (item4 ++ (item5 ++ (item6 ++ (item7 ++ (item8 ++ []))))))))) := by
  simp only [seq_append, Pipeline.chain_cons, Pipeline.chain_nil]
  rfl

/-- @main is the straight line of its 81 operations. -/
theorem main_eq (c : Dev nD) : main (F := F) c = seq ops :=
  (main_chain c).trans (chain_items.trans (congrArg seq ops_eq_items.symm))

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨reshape_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., unary_bufs_sub .., ternary_bufs_sub .., reshape_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
theorem opsMid_sub : (opsMid : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsTail_sub : (opsTail : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., reshape_bufs_sub ..⟩
/-- Every operation touches TensorCore references only. -/
theorem ops_sub : (ops : List (HloOp τ sig (Elt F))).Forall fun op => op.bufs ⊆ tcRefs τ sig :=
  List.forall_append.mpr ⟨opsPre_sub, List.forall_append.mpr ⟨opsMid_sub, opsTail_sub⟩⟩

theorem opsPre_fresh : (opsPre : List (HloOp τ sig (Elt F))).Forall fun op => op.fresh = ∅ := by
  simp only [List.Forall]; repeat' constructor
theorem opsMid_fresh : (opsMid : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor
/-- Every operation determines its results. -/
theorem ops_fresh : ∀ op ∈ (ops : List (HloOp τ sig (Elt F))), op.fresh = ∅ :=
  List.forall_iff_forall_mem.mp (List.forall_append.mpr ⟨opsPre_fresh, List.forall_append.mpr ⟨opsMid_fresh, opsTail_fresh⟩⟩)

/-- On every device, for any float values, from any memory with zero counters: every weakly fair execution of @main
    terminates, and every final state has each TensorCore buffer at the fold of the operations' results over its launch
    contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The fold along the three parts -/

/-- The fold over a concatenation is the second list's fold over the first's. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

theorem after_split (V : Valuation τ sig (Elt F)) :
    after ops V = after opsTail (after opsMid (after opsPre V)) := by
  show after (opsPre ++ (opsMid ++ opsTail)) V = _
  rw [after_app, after_app]

/-! ### No operation writes an argument -/

theorem pre_arg0 (V : Valuation τ sig (Elt F)) : after opsPre V (Proc.devRef .tc main_arg0) = V (Proc.devRef .tc main_arg0) := by
  after_results_simp
theorem mid_arg0 (V : Valuation τ sig (Elt F)) : after opsMid V (Proc.devRef .tc main_arg0) = V (Proc.devRef .tc main_arg0) := by
  after_results_simp
theorem tail_arg0 (V : Valuation τ sig (Elt F)) : after opsTail V (Proc.devRef .tc main_arg0) = V (Proc.devRef .tc main_arg0) := by
  after_results_simp
theorem after_arg0 (V : Valuation τ sig (Elt F)) : after ops V (Proc.devRef .tc main_arg0) = V (Proc.devRef .tc main_arg0) := by
  rw [after_split, tail_arg0, mid_arg0, pre_arg0]
theorem pre_arg1 (V : Valuation τ sig (Elt F)) : after opsPre V (Proc.devRef .tc main_arg1) = V (Proc.devRef .tc main_arg1) := by
  after_results_simp
theorem mid_arg1 (V : Valuation τ sig (Elt F)) : after opsMid V (Proc.devRef .tc main_arg1) = V (Proc.devRef .tc main_arg1) := by
  after_results_simp
theorem tail_arg1 (V : Valuation τ sig (Elt F)) : after opsTail V (Proc.devRef .tc main_arg1) = V (Proc.devRef .tc main_arg1) := by
  after_results_simp
theorem after_arg1 (V : Valuation τ sig (Elt F)) : after ops V (Proc.devRef .tc main_arg1) = V (Proc.devRef .tc main_arg1) := by
  rw [after_split, tail_arg1, mid_arg1, pre_arg1]
theorem pre_arg2 (V : Valuation τ sig (Elt F)) : after opsPre V (Proc.devRef .tc main_arg2) = V (Proc.devRef .tc main_arg2) := by
  after_results_simp
theorem mid_arg2 (V : Valuation τ sig (Elt F)) : after opsMid V (Proc.devRef .tc main_arg2) = V (Proc.devRef .tc main_arg2) := by
  after_results_simp
theorem tail_arg2 (V : Valuation τ sig (Elt F)) : after opsTail V (Proc.devRef .tc main_arg2) = V (Proc.devRef .tc main_arg2) := by
  after_results_simp
theorem after_arg2 (V : Valuation τ sig (Elt F)) : after ops V (Proc.devRef .tc main_arg2) = V (Proc.devRef .tc main_arg2) := by
  rw [after_split, tail_arg2, mid_arg2, pre_arg2]
theorem pre_arg3 (V : Valuation τ sig (Elt F)) : after opsPre V (Proc.devRef .tc main_arg3) = V (Proc.devRef .tc main_arg3) := by
  after_results_simp
theorem mid_arg3 (V : Valuation τ sig (Elt F)) : after opsMid V (Proc.devRef .tc main_arg3) = V (Proc.devRef .tc main_arg3) := by
  after_results_simp
theorem tail_arg3 (V : Valuation τ sig (Elt F)) : after opsTail V (Proc.devRef .tc main_arg3) = V (Proc.devRef .tc main_arg3) := by
  after_results_simp
theorem after_arg3 (V : Valuation τ sig (Elt F)) : after ops V (Proc.devRef .tc main_arg3) = V (Proc.devRef .tc main_arg3) := by
  rw [after_split, tail_arg3, mid_arg3, pre_arg3]
theorem pre_arg4 (V : Valuation τ sig (Elt F)) : after opsPre V (Proc.devRef .tc main_arg4) = V (Proc.devRef .tc main_arg4) := by
  after_results_simp
theorem mid_arg4 (V : Valuation τ sig (Elt F)) : after opsMid V (Proc.devRef .tc main_arg4) = V (Proc.devRef .tc main_arg4) := by
  after_results_simp
theorem tail_arg4 (V : Valuation τ sig (Elt F)) : after opsTail V (Proc.devRef .tc main_arg4) = V (Proc.devRef .tc main_arg4) := by
  after_results_simp
theorem after_arg4 (V : Valuation τ sig (Elt F)) : after ops V (Proc.devRef .tc main_arg4) = V (Proc.devRef .tc main_arg4) := by
  rw [after_split, tail_arg4, mid_arg4, pre_arg4]
theorem pre_arg5 (V : Valuation τ sig (Elt F)) : after opsPre V (Proc.devRef .tc main_arg5) = V (Proc.devRef .tc main_arg5) := by
  after_results_simp
theorem mid_arg5 (V : Valuation τ sig (Elt F)) : after opsMid V (Proc.devRef .tc main_arg5) = V (Proc.devRef .tc main_arg5) := by
  after_results_simp
theorem tail_arg5 (V : Valuation τ sig (Elt F)) : after opsTail V (Proc.devRef .tc main_arg5) = V (Proc.devRef .tc main_arg5) := by
  after_results_simp
theorem after_arg5 (V : Valuation τ sig (Elt F)) : after ops V (Proc.devRef .tc main_arg5) = V (Proc.devRef .tc main_arg5) := by
  rw [after_split, tail_arg5, mid_arg5, pre_arg5]

/-! ### The middle part: what it keeps and what it writes -/

theorem mid_v0 (U : Valuation τ sig (Elt F)) : after opsMid U (Proc.devRef .tc main_v0) = U (Proc.devRef .tc main_v0) := by
  after_results_simp
theorem mid_v9 (U : Valuation τ sig (Elt F)) : after opsMid U (Proc.devRef .tc main_v9) = U (Proc.devRef .tc main_v9) := by
  after_results_simp
theorem mid_v11 (U : Valuation τ sig (Elt F)) : after opsMid U (Proc.devRef .tc main_v11) = U (Proc.devRef .tc main_v11) := by
  after_results_simp

/-- At %38 the middle part leaves the feed-forward term of the scattered tokens, the two weights and the two biases. -/
theorem mid_v38 (U : Valuation τ sig (Elt F)) : after opsMid U (Proc.devRef .tc main_v38)
    = HostFfn.ffnHost (U (Proc.devRef .tc main_v29)) (U (Proc.devRef .tc main_arg2)) (U (Proc.devRef .tc main_arg3))
        (U (Proc.devRef .tc main_arg4)) (U (Proc.devRef .tc main_arg5)) := by
  after_results
  rfl

end Cert.ReferenceIdeal.HostRun

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KernelPayload.lean ====
/-
  The kernel body's one stored value, read at an index of its block at the ideal values: with the five loaded
  blocks `x0 : [1, 256, 1024]` (slots), `x1 : [1, 1024, 4096]`, `x2 : [1, 1, 4096]`, `x3 : [1, 4096, 1024]`,
  `x4 : [1, 1, 1024]` (one expert's two weight matrices and biases),

    stored[u, p, c] = (∑ j, max ((∑ k, x0[0, p, k] · x1[0, k, j]) + x2[0, 0, j]) 0 · x3[0, j, c]) + x4[0, 0, c].

  The casts that drop or add the leading unit axis read through it, a bias row spread over the 256 slots reads
  the row, each matrix product into the zero accumulator is the plain sum over its contracted axis, and the
  rounding of the hidden layer to half precision is the identity at the ideal values.
-/
import proofs.«115585_j5566277615661_1_alg».proof.Proof.Gen.KernelIdeal.Skeleton
import proofs.«115585_j5566277615661_1_alg».proof.Proof.LibPlainDot
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

variable [Facts]
open Facts₀ Facts

/-- The two records of dimension numbers are the plain product's. -/
theorem dims1_eq : dot_S256x1024_S1024x4096_S256x4096_1_0_0_1_n_n = DotDims.plain 256 1024 4096 := rfl
theorem dims2_eq : dot_S256x4096_S4096x1024_S256x1024_1_0_0_1_n_n = DotDims.plain 256 4096 1024 := rfl

/-- The block's function, entry by entry. -/
def blockOut (x0 : Vec Ideal S1x256x1024 .bf16) (x1 : Vec Ideal S1x1024x4096 .bf16) (x2 : Vec Ideal S1x1x4096 .f32)
    (x3 : Vec Ideal S1x4096x1024 .bf16) (x4 : Vec Ideal S1x1x1024 .f32) (p : Fin 256) (c : Fin 1024) : EReal :=
  (∑ j : Fin 4096, max ((∑ k : Fin 1024, x0 (ix3 (0 : Fin 1) p k) * x1 (ix3 (0 : Fin 1) k j)) + x2 (ix3 (0 : Fin 1) (0 : Fin 1) j))
      (Ideal.ofBits .f32 0x00000000#32) * x3 (ix3 (0 : Fin 1) j c)) + x4 (ix3 (0 : Fin 1) (0 : Fin 1) c)

/-- The stored value at (u, p, c). -/
theorem pay_apply (x0 : Vec Ideal S1x256x1024 .bf16) (x1 : Vec Ideal S1x1024x4096 .bf16) (x2 : Vec Ideal S1x1x4096 .f32)
    (x3 : Vec Ideal S1x4096x1024 .bf16) (x4 : Vec Ideal S1x1x1024 .f32) (u : Fin 1) (p : Fin 256) (c : Fin 1024) :
    k0_pay1 (F := Ideal) x0 x1 x2 x3 x4 (ix3 u p c) = blockOut x0 x1 x2 x3 x4 p c := by
  unfold k0_pay1 blockOut
  simp only [dims1_eq, dims2_eq, shapeCast_ab_1ab_apply, addf_apply, Cert.Lib.PlainDot.matmul_plain_zero_apply,
    truncf_apply, maximumf_apply, broadcast_apply, broadcastTo_1b_ab_apply, shapeCast_1ab_ab_apply]
  rfl

end Cert.KernelIdeal.Payload

end
-- ==== Proof.FfnSpec.lean ====
/-
  The feed-forward layer of a mixture of experts as a function of its operands, entry by entry, on the extended
  reals: for expert `e`, capacity slot `r` and output feature `c`,

    out[e, r, c] = (∑ j, max ((∑ k, x[e, r, k] · w1[e, k, j]) + b1[e, j]) 0 · w2[e, j, c]) + b2[e, c],

  the clamp taken against the value of the single-precision zero word.  The two biases are taken as functions of
  their two coordinates, so that a bias kept as [E, n] and one kept as [E, 1, n] serve alike.
-/
import Idealize.ShloMosaic.Lib.ValueIdx
import Idealize.ShloMosaic.PureOps.Ideal

noncomputable section

namespace Cert.Ffn

open Idealize.ShloMosaic Idealize.ShloMosaic.ValueIdx

variable {E C M H : Nat}

/-- Hidden unit `j` of slot `(e, r)`: the first product plus its bias, clamped at zero. -/
def hid (x : (⟨3, ![E, C, M]⟩ : Shape).Idx → EReal) (w1 : (⟨3, ![E, M, H]⟩ : Shape).Idx → EReal)
    (b1 : Fin E → Fin H → EReal) (e : Fin E) (r : Fin C) (j : Fin H) : EReal :=
  max ((∑ k : Fin M, x (ix3 e r k) * w1 (ix3 e k j)) + b1 e j) (Ideal.ofBits .f32 0x00000000#32)

/-- Output feature `c` of slot `(e, r)`: the second product over the hidden units plus its bias. -/
def out (x : (⟨3, ![E, C, M]⟩ : Shape).Idx → EReal) (w1 : (⟨3, ![E, M, H]⟩ : Shape).Idx → EReal)
    (b1 : Fin E → Fin H → EReal) (w2 : (⟨3, ![E, H, M]⟩ : Shape).Idx → EReal) (b2 : Fin E → Fin M → EReal)
    (e : Fin E) (r : Fin C) (c : Fin M) : EReal :=
  (∑ j : Fin H, hid x w1 b1 e r j * w2 (ix3 e j c)) + b2 e c

/-- The layer's whole output array. -/
def arr (x : (⟨3, ![E, C, M]⟩ : Shape).Idx → EReal) (w1 : (⟨3, ![E, M, H]⟩ : Shape).Idx → EReal)
    (b1 : Fin E → Fin H → EReal) (w2 : (⟨3, ![E, H, M]⟩ : Shape).Idx → EReal) (b2 : Fin E → Fin M → EReal) :
    (⟨3, ![E, C, M]⟩ : Shape).Idx → EReal :=
  fun i => out x w1 b1 w2 b2 (i 0) (i 1) (i 2)

theorem arr_apply (x : (⟨3, ![E, C, M]⟩ : Shape).Idx → EReal) (w1 : (⟨3, ![E, M, H]⟩ : Shape).Idx → EReal)
    (b1 : Fin E → Fin H → EReal) (w2 : (⟨3, ![E, H, M]⟩ : Shape).Idx → EReal) (b2 : Fin E → Fin M → EReal)
    (e : Fin E) (r : Fin C) (c : Fin M) : arr x w1 b1 w2 b2 (ix3 e r c) = out x w1 b1 w2 b2 e r c := rfl

end Cert.Ffn

end
-- ==== Proof.KernelValue.lean ====
/-
  The kernel's output array after the run, as one function of the arrays the region finds.

  The grid has 8 · 16 points; point `t` works for expert `t / 16` on the 256 capacity slots `(t % 16) · 256 + p`.
  Its six blocks sit, in their arrays, at block indices (t / 16, t % 16, 0) for the slots read and the rows
  written, and (t / 16, 0, 0) for the expert's two weight matrices and two bias rows — decided once over the
  grid.  So what point `t` writes back is the block at (t / 16, t % 16, 0) of the layer's function
  (`Cert.Ffn.arr`) of the five input arrays; the 128 blocks tile the output array (entry (e, r, c) lies in the
  block of point `e · 16 + r / 256`), hence the array ends holding that function.
-/
import proofs.«115585_j5566277615661_1_alg».proof.Proof.Gen.KernelIdeal.Frame
import proofs.«115585_j5566277615661_1_alg».proof.Proof.KernelPayload
import proofs.«115585_j5566277615661_1_alg».proof.Proof.FfnSpec
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0, 0] : Fin 3 → Nat) = fun _ => 0 := funext fun a => by fin_cases a <;> rfl

theorem lt_N (t : Fin cfg0.N) : t.val < 128 := Nat.lt_of_lt_of_eq t.isLt N_0

/-- The expert point `t` works for. -/
def ex (t : Fin cfg0.N) : Fin 8 := ⟨t.val / 16, by have := lt_N t; omega⟩
/-- The capacity slot that row `p` of point `t`'s block is. -/
def row (t : Fin cfg0.N) (p : Fin 256) : Fin 4096 := ⟨t.val % 16 * 256 + p.val, by have := lt_N t; have := p.isLt; omega⟩

/-- The six index maps, decided over the grid. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = t.val % 16 ∧ win0_5.index t (2 : Fin 3) = 0 :=
  (by decide +kernel : ∀ t : Fin grid0.N, _)

/-- The output array's function of the arrays the region finds: the layer over the slots (window 0), the two
    weight arrays (windows 1 and 3) and the two biases kept as [8, 1, n] (windows 2 and 4). -/
def G (c : Dev nD) : S8x4096x1024.Idx → EReal :=
  Cert.Ffn.arr (C := 4096) (V m c main_v30 : S8x4096x1024.Idx → EReal) (V m c main_v31 : S8x1024x4096.Idx → EReal)
    (fun e j => (V m c main_v33 : S8x1x4096.Idx → EReal) (ix3 e (0 : Fin 1) j))
    (V m c main_v32 : S8x4096x1024.Idx → EReal)
    (fun e q => (V m c main_v34 : S8x1x1024.Idx → EReal) (ix3 e (0 : Fin 1) q))

/-! ## Each input block read where the output's block says -/

theorem read0 (c : Dev nD) (t : Fin cfg0.N) (p : Fin 256) (k : Fin 1024) :
    iblk m c 0 t (ix3 (0 : Fin 1) p k) = (V m c main_v30 : S8x4096x1024.Idx → EReal) (ix3 (ex t) (row t p) k) := by
  obtain ⟨e0, e1, e2, -⟩ := idx_facts t
  show (V m c main_v30 : S8x4096x1024.Idx → EReal) (((cfg0.win 0).blk t).view.emb (ix3 (0 : Fin 1) p k)) = _
  refine congrArg (V m c main_v30 : S8x4096x1024.Idx → EReal) (funext fun a => Fin.ext ?_)
  match a with
  | ⟨0, _⟩ => show win0_0.index t (0 : Fin 3) * 1 + 1 * 0 = t.val / 16; omega
  | ⟨1, _⟩ => show win0_0.index t (1 : Fin 3) * 256 + 1 * p.val = t.val % 16 * 256 + p.val; omega
  | ⟨2, _⟩ => show win0_0.index t (2 : Fin 3) * 1024 + 1 * k.val = k.val; omega

theorem read1 (c : Dev nD) (t : Fin cfg0.N) (k : Fin 1024) (j : Fin 4096) :
    iblk m c 1 t (ix3 (0 : Fin 1) k j) = (V m c main_v31 : S8x1024x4096.Idx → EReal) (ix3 (ex t) k j) := by
  obtain ⟨-, -, -, e0, e1, e2, -⟩ := idx_facts t
  show (V m c main_v31 : S8x1024x4096.Idx → EReal) (((cfg0.win 1).blk t).view.emb (ix3 (0 : Fin 1) k j)) = _
  refine congrArg (V m c main_v31 : S8x1024x4096.Idx → EReal) (funext fun a => Fin.ext ?_)
  match a with
  | ⟨0, _⟩ => show win0_1.index t (0 : Fin 3) * 1 + 1 * 0 = t.val / 16; omega
  | ⟨1, _⟩ => show win0_1.index t (1 : Fin 3) * 1024 + 1 * k.val = k.val; omega
  | ⟨2, _⟩ => show win0_1.index t (2 : Fin 3) * 4096 + 1 * j.val = j.val; omega

theorem read2 (c : Dev nD) (t : Fin cfg0.N) (j : Fin 4096) :
    iblk m c 2 t (ix3 (0 : Fin 1) (0 : Fin 1) j) = (V m c main_v33 : S8x1x4096.Idx → EReal) (ix3 (ex t) (0 : Fin 1) j) := by
  obtain ⟨-, -, -, -, -, -, e0, e1, e2, -⟩ := idx_facts t
  show (V m c main_v33 : S8x1x4096.Idx → EReal) (((cfg0.win 2).blk t).view.emb (ix3 (0 : Fin 1) (0 : Fin 1) j)) = _
  refine congrArg (V m c main_v33 : S8x1x4096.Idx → EReal) (funext fun a => Fin.ext ?_)
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 4096 + 1 * j.val = j.val; omega

theorem read3 (c : Dev nD) (t : Fin cfg0.N) (j : Fin 4096) (q : Fin 1024) :
    iblk m c 3 t (ix3 (0 : Fin 1) j q) = (V m c main_v32 : S8x4096x1024.Idx → EReal) (ix3 (ex t) j q) := by
  obtain ⟨-, -, -, -, -, -, -, -, -, e0, e1, e2, -⟩ := idx_facts t
  show (V m c main_v32 : S8x4096x1024.Idx → EReal) (((cfg0.win 3).blk t).view.emb (ix3 (0 : Fin 1) j q)) = _
  refine congrArg (V m c main_v32 : S8x4096x1024.Idx → EReal) (funext fun a => Fin.ext ?_)
  match a with
  | ⟨0, _⟩ => show win0_3.index t (0 : Fin 3) * 1 + 1 * 0 = t.val / 16; omega
  | ⟨1, _⟩ => show win0_3.index t (1 : Fin 3) * 4096 + 1 * j.val = j.val; omega
  | ⟨2, _⟩ => show win0_3.index t (2 : Fin 3) * 1024 + 1 * q.val = q.val; omega

theorem read4 (c : Dev nD) (t : Fin cfg0.N) (q : Fin 1024) :
    iblk m c 4 t (ix3 (0 : Fin 1) (0 : Fin 1) q) = (V m c main_v34 : S8x1x1024.Idx → EReal) (ix3 (ex t) (0 : Fin 1) q) := by
  obtain ⟨-, -, -, -, -, -, -, -, -, -, -, -, e0, e1, e2, -⟩ := idx_facts t
  show (V m c main_v34 : S8x1x1024.Idx → EReal) (((cfg0.win 4).blk t).view.emb (ix3 (0 : Fin 1) (0 : Fin 1) q)) = _
  refine congrArg (V m c main_v34 : S8x1x1024.Idx → EReal) (funext fun a => Fin.ext ?_)
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * q.val = q.val; omega

/-- Where entry (u, p, q) of point `t`'s output block sits in the output array. -/
theorem emb5_eq (t : Fin cfg0.N) (u : Fin 1) (p : Fin 256) (q : Fin 1024) :
    ((cfg0.win 5).blk t).view.emb (ix3 u p q : S1x256x1024.Idx) = (ix3 (ex t) (row t p) q : S8x4096x1024.Idx) := by
  obtain ⟨-, -, -, -, -, -, -, -, -, -, -, -, -, -, -, e0, e1, e2⟩ := idx_facts t
  refine funext fun a => Fin.ext ?_
  have h0 : u.val < 1 := u.isLt
  match a with
  | ⟨0, _⟩ => show win0_5.index t (0 : Fin 3) * 1 + 1 * u.val = t.val / 16; omega
  | ⟨1, _⟩ => show win0_5.index t (1 : Fin 3) * 256 + 1 * p.val = t.val % 16 * 256 + p.val; omega
  | ⟨2, _⟩ => show win0_5.index t (2 : Fin 3) * 1024 + 1 * q.val = q.val; omega

/-! ## What a point writes back -/

/-- The body's stored value at a block index is the layer's function at the array index under it. -/
theorem flushed_at (c : Dev nD) (t : Fin cfg0.N) (y : S1x256x1024.Idx) :
    k0_pay1 (F := Ideal) (iblk m c 0 t) (iblk m c 1 t) (iblk m c 2 t) (iblk m c 3 t) (iblk m c 4 t) y
      = G m c (((cfg0.win 5).blk t).view.emb y) := by
  obtain ⟨u, p, q, rfl⟩ : ∃ (u : Fin 1) (p : Fin 256) (q : Fin 1024), y = ix3 u p q := ⟨y 0, y 1, y 2, eq_ix3 y⟩
  rw [emb5_eq t u p q]
  refine (Cert.KernelIdeal.Payload.pay_apply (iblk m c 0 t) (iblk m c 1 t) (iblk m c 2 t) (iblk m c 3 t) (iblk m c 4 t) u p q).trans ?_
  unfold Cert.KernelIdeal.Payload.blockOut G
  rw [Cert.Ffn.arr_apply]
  unfold Cert.Ffn.out Cert.Ffn.hid
  simp only [read0 m c t, read1 m c t, read2 m c t, read3 m c t, read4 m c t]

/-- WHAT POINT `t` WRITES BACK is block `t` of the layer's function of the arrays the region finds. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S1x256x1024) hz, View.ld_unit_zero (S := S1x1024x4096) hz,
    View.ld_unit_zero (S := S1x1x4096) hz, View.ld_unit_zero (S := S1x4096x1024) hz, View.ld_unit_zero (S := S1x1x1024) hz]
  funext y
  exact flushed_at m c t y

/-! ## The blocks tile the array -/

theorem mem_blk (t : Fin cfg0.N) (i : S8x4096x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v35).slice (win0_5.rect t)).set ↔ _
  rw [View.set_slice_whole, Rect.mem_set_unit]
  exact Iff.rfl

/-- Entry (e, r, c) of the output array lies in the block of point `e · 16 + r / 256`. -/
theorem cover (i : S8x4096x1024.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 1024 := (i 2).isLt
  have hN : (i 0).val * 16 + (i 1).val / 256 < cfg0.N := by rw [show cfg0.N = 128 from N_0]; omega
  obtain ⟨-, -, -, -, -, -, -, -, -, -, -, -, -, -, -, e0, e1, e2⟩ := idx_facts ⟨(i 0).val * 16 + (i 1).val / 256, hN⟩
  refine ⟨⟨(i 0).val * 16 + (i 1).val / 256, hN⟩, flush0_5 _, ?_⟩
  rw [mem_blk]
  intro a
  match a with
  | ⟨0, _⟩ =>
    show win0_5.index ⟨(i 0).val * 16 + (i 1).val / 256, hN⟩ (0 : Fin 3) * 1 ≤ (i 0).val
      ∧ (i 0).val < win0_5.index ⟨(i 0).val * 16 + (i 1).val / 256, hN⟩ (0 : Fin 3) * 1 + 1
    have e0' : win0_5.index ⟨(i 0).val * 16 + (i 1).val / 256, hN⟩ (0 : Fin 3) = ((i 0).val * 16 + (i 1).val / 256) / 16 := e0
    omega
  | ⟨1, _⟩ =>
    show win0_5.index ⟨(i 0).val * 16 + (i 1).val / 256, hN⟩ (1 : Fin 3) * 256 ≤ (i 1).val
      ∧ (i 1).val < win0_5.index ⟨(i 0).val * 16 + (i 1).val / 256, hN⟩ (1 : Fin 3) * 256 + 256
    have e1' : win0_5.index ⟨(i 0).val * 16 + (i 1).val / 256, hN⟩ (1 : Fin 3) = ((i 0).val * 16 + (i 1).val / 256) % 16 := e1
    omega
  | ⟨2, _⟩ =>
    show win0_5.index ⟨(i 0).val * 16 + (i 1).val / 256, hN⟩ (2 : Fin 3) * 1024 ≤ (i 2).val
      ∧ (i 2).val < win0_5.index ⟨(i 0).val * 16 + (i 1).val / 256, hN⟩ (2 : Fin 3) * 1024 + 1024
    omega

/-- THE ARRAY after the run is the layer's function of the arrays the region finds. -/
theorem final (c : Dev nD) : (dats m 0 c).arrAt 5 cfg0.N = G m c :=
  (dats m 0 c).arrAt_eq_of_cover 5 (G m c) (fun t _ => flushed_eq m c t) cover

end Cert.KernelIdeal.BlockValue

end
-- ==== Proof.LibBatchDot.lean ====
/-
  A batched matrix product read at an index, generic in the four extents.

  For the dimension numbers "batch axis 0 on both sides, the left operand [B, M, K] contracted on its last axis,
  the right operand [B, K, N] on its middle one" — `einsum('bmk,bkn->bmn')` — at the ideal values (floats
  extended reals, every operation exact) the host's `dot_general`, read at the output index (e, r, c), is the
  plain sum over k of lhs (e, r, k) · rhs (e, k, c): no accumulator, no rounding and no order is left in it.
  The contraction index, a one-axis multi-index, is re-indexed by its one coordinate.
-/
import Idealize.ShloMosaic.Lib.ValueIdx
import Idealize.ShloMosaic.PureOps.Ideal.Laws

noncomputable section

namespace Cert.Lib.BatchDot

open Idealize.ShloMosaic Idealize.ShloMosaic.ValueIdx

variable {B M K N : Nat}

/-- The dimension numbers of `einsum('bmk,bkn->bmn')`, over any witness of their well-formedness. -/
abbrev dims (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable (wf : DotDims.WF ⟨3, ![B, M, K]⟩ ⟨3, ![B, K, N]⟩ ⟨3, ![B, M, N]⟩ [2] [1] [1] [2] [0] [0])

/-- The left operand's index at output index (e, r, c) and contraction position k is (e, r, k). -/
theorem lhsIdx_dims (e : Fin B) (r : Fin M) (c : Fin N) (k : Fin K) :
    (dims wf).lhsIdx (ix3 e r c) ((contrEquiv1 (dims wf) K rfl rfl).symm k) = ix3 e r k := by
  have hk := contrEquiv1_symm_val (dims wf) K rfl rfl k
  exact funext fun a => Fin.ext (by
    match a with
    | ⟨0, _⟩ => rfl
    | ⟨1, _⟩ => rfl
    | ⟨2, _⟩ => exact ((dims wf).lhsIdx_val_of_single rfl _ _).trans hk)

/-- The right operand's index at output index (e, r, c) and contraction position k is (e, k, c). -/
theorem rhsIdx_dims (e : Fin B) (r : Fin M) (c : Fin N) (k : Fin K) :
    (dims wf).rhsIdx (ix3 e r c) ((contrEquiv1 (dims wf) K rfl rfl).symm k) = ix3 e k c := by
  have hk := contrEquiv1_symm_val (dims wf) K rfl rfl k
  exact funext fun a => Fin.ext (by
    match a with
    | ⟨0, _⟩ => rfl
    | ⟨1, _⟩ => exact ((dims wf).rhsIdx_val_of_single rfl _ _).trans hk
    | ⟨2, _⟩ => rfl)

/-- The host's batched `dot_general`, at the ideal values, read at (e, r, c): the sum over k of
    lhs (e, r, k) · rhs (e, k, c). -/
theorem dotGeneral_apply {φ₁ φ₂ : FTy} (prec : Option ContractPrecision)
    (lhs : FVec Ideal ⟨3, ![B, M, K]⟩ φ₁) (rhs : FVec Ideal ⟨3, ![B, K, N]⟩ φ₂) (e : Fin B) (r : Fin M) (c : Fin N) :
    Host.dotGeneral (dims wf) prec lhs rhs (ix3 e r c) = ∑ k : Fin K, lhs (ix3 e r k) * rhs (ix3 e k c) := by
  show FloatOps.dotGeneral (dims wf) prec .single lhs rhs (ix3 e r c) = _
  rw [Ideal.dotGeneral_apply, ← Equiv.sum_comp (contrEquiv1 (dims wf) K rfl rfl).symm]
  refine Finset.sum_congr rfl fun k _ => ?_
  rw [lhsIdx_dims, rhsIdx_dims]

end Cert.Lib.BatchDot

end
-- ==== Proof.RefFfn.lean ====
/-
  The reference's feed-forward stretch, read at an index at the ideal values, is the layer's function
  (`Cert.Ffn.out`): each batched `dot_general` is the plain sum over its contracted axis, a bias spread over the
  slot axis reads the bias at (expert, feature), and the clamp's zero array reads the zero word everywhere.
-/
import proofs.«115585_j5566277615661_1_alg».proof.Proof.HostFfn
import proofs.«115585_j5566277615661_1_alg».proof.Proof.FfnSpec
import proofs.«115585_j5566277615661_1_alg».proof.Proof.LibBatchDot
import Idealize.ShloMosaic.Lib.Pipeline.Value

noncomputable section

namespace Cert.ReferenceIdeal.RefFfn

open Cert.ReferenceIdeal Cert.ReferenceIdeal.HostFfn Idealize.ShloMosaic Idealize.ShloMosaic.ValueIdx

variable [Facts]
open Facts₀ Facts

/-- A bias [8, 4096] spread over the slot axis reads the bias at (expert, feature). -/
theorem spread1_apply (b1 : FVec Ideal S8x4096 .f32) (e : Fin 8) (r : Fin 4096) (j : Fin 4096) :
    spread1 (F := Ideal) b1 (ix3 e r j) = b1 (ix2 e j) := by
  unfold spread1
  refine (broadcastInDim_apply _ _ _ (ix3 e r j) (ix3 e (0 : Fin 1) j) fun a => ?_).trans
    (broadcastInDim_apply _ _ _ (ix3 e (0 : Fin 1) j) (ix2 e j) fun a => ?_)
  · match a with
    | ⟨0, _⟩ => rfl
    | ⟨1, _⟩ => rfl
    | ⟨2, _⟩ => rfl
  · match a with
    | ⟨0, _⟩ => rfl
    | ⟨1, _⟩ => rfl

/-- The same for a bias [8, 1024]. -/
theorem spread2_apply (b2 : FVec Ideal S8x1024 .f32) (e : Fin 8) (r : Fin 4096) (c : Fin 1024) :
    spread2 (F := Ideal) b2 (ix3 e r c) = b2 (ix2 e c) := by
  unfold spread2
  refine (broadcastInDim_apply _ _ _ (ix3 e r c) (ix3 e (0 : Fin 1) c) fun a => ?_).trans
    (broadcastInDim_apply _ _ _ (ix3 e (0 : Fin 1) c) (ix2 e c) fun a => ?_)
  · match a with
    | ⟨0, _⟩ => rfl
    | ⟨1, _⟩ => rfl
    | ⟨2, _⟩ => rfl
  · match a with
    | ⟨0, _⟩ => rfl
    | ⟨1, _⟩ => rfl

/-- The two records of dimension numbers are the batched product's. -/
theorem dims1_eq : dot_S8x4096x1024_S8x1024x4096_S8x4096x4096_2_1_1_2_0_0
    = Cert.Lib.BatchDot.dims dot_S8x4096x1024_S8x1024x4096_S8x4096x4096_2_1_1_2_0_0_wf := rfl
theorem dims2_eq : dot_S8x4096x4096_S8x4096x1024_S8x4096x1024_2_1_1_2_0_0
    = Cert.Lib.BatchDot.dims dot_S8x4096x4096_S8x4096x1024_S8x4096x1024_2_1_1_2_0_0_wf := rfl

/-- The hidden layer at (e, r, j). -/
theorem hiddenLayer_apply (x : FVec Ideal S8x4096x1024 .f32) (w1 : FVec Ideal S8x1024x4096 .f32) (b1 : FVec Ideal S8x4096 .f32)
    (e : Fin 8) (r : Fin 4096) (j : Fin 4096) :
    HostFfn.hidden (F := Ideal) x w1 b1 (ix3 e r j) = Cert.Ffn.hid x w1 (fun e j => b1 (ix2 e j)) e r j := by
  unfold HostFfn.hidden Cert.Ffn.hid
  show max (Host.dotGeneral dot_S8x4096x1024_S8x1024x4096_S8x4096x4096_2_1_1_2_0_0 none x w1 (ix3 e r j)
      + spread1 (F := Ideal) b1 (ix3 e r j)) (Ideal.ofBits .f32 0x00000000#32) = _
  rw [dims1_eq, Cert.Lib.BatchDot.dotGeneral_apply, spread1_apply]

/-- The whole stretch at (e, r, c). -/
theorem ffnHost_apply (x : FVec Ideal S8x4096x1024 .f32) (w1 : FVec Ideal S8x1024x4096 .f32) (b1 : FVec Ideal S8x4096 .f32)
    (w2 : FVec Ideal S8x4096x1024 .f32) (b2 : FVec Ideal S8x1024 .f32) (e : Fin 8) (r : Fin 4096) (c : Fin 1024) :
    ffnHost (F := Ideal) x w1 b1 w2 b2 (ix3 e r c)
      = Cert.Ffn.out x w1 (fun e j => b1 (ix2 e j)) w2 (fun e c => b2 (ix2 e c)) e r c := by
  unfold ffnHost Cert.Ffn.out
  show Host.dotGeneral dot_S8x4096x4096_S8x4096x1024_S8x4096x1024_2_1_1_2_0_0 none (HostFfn.hidden (F := Ideal) x w1 b1) w2 (ix3 e r c)
      + spread2 (F := Ideal) b2 (ix3 e r c) = _
  rw [dims2_eq, Cert.Lib.BatchDot.dotGeneral_apply, spread2_apply]
  refine congrArg (· + b2 (ix2 e c)) (Finset.sum_congr rfl fun j _ => ?_)
  rw [hiddenLayer_apply]

/-- As whole arrays. -/
theorem ffnHost_eq (x : FVec Ideal S8x4096x1024 .f32) (w1 : FVec Ideal S8x1024x4096 .f32) (b1 : FVec Ideal S8x4096 .f32)
    (w2 : FVec Ideal S8x4096x1024 .f32) (b2 : FVec Ideal S8x1024 .f32) :
    ffnHost (F := Ideal) x w1 b1 w2 b2
      = Cert.Ffn.arr x w1 (fun e j => b1 (ix2 e j)) w2 (fun e c => b2 (ix2 e c)) := by
  funext i
  obtain ⟨e, r, c, rfl⟩ : ∃ (e : Fin 8) (r : Fin 4096) (c : Fin 1024), i = ix3 e r c := ⟨i 0, i 1, i 2, eq_ix3 i⟩
  rw [ffnHost_apply, Cert.Ffn.arr_apply]

end Cert.ReferenceIdeal.RefFfn

end
-- ==== Proof.Layer.lean ====
/-
  The array the combine gathers from is the same on both sides.

  The kernel's region finds the dispatched slots and the two weight arrays rounded to half precision — the
  identity at the ideal values — and the two biases [8, n] laid out as [8, 1, n], which read the bias at
  (expert, feature); its output array is the layer's function (`Cert.Ffn.arr`) of those.  The reference's two
  batched products with bias and clamp are the same function of the unrounded operands.  Hence, over operands
  that agree, the two arrays are equal.
-/
import proofs.«115585_j5566277615661_1_alg».proof.Proof.KernelValue
import proofs.«115585_j5566277615661_1_alg».proof.Proof.RefFfn

noncomputable section

namespace Cert.Layer

open Idealize.ShloMosaic Idealize.ShloMosaic.TcCoe Idealize.SL.Sem Idealize.ShloMosaic.ValueIdx

/-- A bias [8, 4096] laid out as [8, 1, 4096] reads the bias at (expert, feature). -/
theorem bias1 (b : Cert.KernelIdeal.S8x4096.Idx → EReal) (h : Cert.KernelIdeal.S8x4096.ShapeCasts Cert.KernelIdeal.S8x1x4096)
    (e : Fin 8) (j : Fin 4096) :
    shapeCast Cert.KernelIdeal.S8x1x4096 b h (ix3 e (0 : Fin 1) j) = b (ix2 e j) :=
  shapeCast_apply b h _ _ (by
    rw [Shape.rowMajor_val_two, Shape.rowMajor_val_three]
    show e.val * 4096 + j.val = (e.val * 1 + 0) * 4096 + j.val
    omega)

/-- The same for a bias [8, 1024]. -/
theorem bias2 (b : Cert.KernelIdeal.S8x1024.Idx → EReal) (h : Cert.KernelIdeal.S8x1024.ShapeCasts Cert.KernelIdeal.S8x1x1024)
    (e : Fin 8) (q : Fin 1024) :
    shapeCast Cert.KernelIdeal.S8x1x1024 b h (ix3 e (0 : Fin 1) q) = b (ix2 e q) :=
  shapeCast_apply b h _ _ (by
    rw [Shape.rowMajor_val_two, Shape.rowMajor_val_three]
    show e.val * 1024 + q.val = (e.val * 1 + 0) * 1024 + q.val
    omega)

/-- The layer's function of operands given through the kernel's layouts is the reference's stretch of the
    operands themselves: `x`, `w1`, `w2` are what the region's windows 0, 1, 3 hold (the operands, rounded: the
    same values), `b1'`, `b2'` what windows 2 and 4 hold (the biases as [8, 1, n]). -/
theorem arr_eq_ffnHost (x : FVec Ideal Cert.ReferenceIdeal.S8x4096x1024 .f32) (w1 : FVec Ideal Cert.ReferenceIdeal.S8x1024x4096 .f32)
    (b1 : FVec Ideal Cert.ReferenceIdeal.S8x4096 .f32) (w2 : FVec Ideal Cert.ReferenceIdeal.S8x4096x1024 .f32)
    (b2 : FVec Ideal Cert.ReferenceIdeal.S8x1024 .f32)
    (b1' : Cert.KernelIdeal.S8x1x4096.Idx → EReal) (b2' : Cert.KernelIdeal.S8x1x1024.Idx → EReal)
    (hb1 : ∀ (e : Fin 8) (j : Fin 4096), b1' (ix3 e (0 : Fin 1) j) = b1 (ix2 e j))
    (hb2 : ∀ (e : Fin 8) (q : Fin 1024), b2' (ix3 e (0 : Fin 1) q) = b2 (ix2 e q)) :
    Cert.Ffn.arr (C := 4096) x w1 (fun e j => b1' (ix3 e (0 : Fin 1) j)) w2 (fun e q => b2' (ix3 e (0 : Fin 1) q))
      = Cert.ReferenceIdeal.HostFfn.ffnHost (F := Ideal) x w1 b1 w2 b2 := by
  rw [Cert.ReferenceIdeal.RefFfn.ffnHost_eq]
  simp only [hb1, hb2]

end Cert.Layer

end
-- ==== Proof.HostBridge.lean ====
/-
  The kernel program's host operations against the reference's.

  Both programs compute the dispatch (expert ids, one-hot, running count, slot positions, keep mask, scatter-add into
  the experts' slots) and the combine (slot coordinates, gather back to token order, mask, reshape) with the same
  operations in the same order over their own buffers; only the stretch between differs. Read back at a buffer, each
  side's fold of its operations is a term of its launch contents at the arguments, and the two terms are one term once
  the memories agree on those arguments: `pre_v0`, `pre_v9`, `pre_v11` (the dispatch's outputs the combine reads),
  `pre_v30` … `pre_v34` (the operands of the kernel program's launch, in terms of the reference's scattered tokens and
  of the arguments), and `tail_eq` (the combine of equal inputs is equal).
-/
import proofs.«115585_j5566277615661_1_alg».proof.Proof.RefRun
import proofs.«115585_j5566277615661_1_alg».proof.Proof.Gen.KernelIdeal.Frame

noncomputable section

namespace Cert.HostBridge

open Cert Idealize.ShloMosaic Idealize.ShloMosaic.TcCoe Idealize.SL.Sem Idealize.ShloMosaic.StableHlo

variable {F : FTy → Type} [FloatOps F] [KernelIdeal.Facts] [ReferenceIdeal.Facts]

/-! ## Reading a fold through a join of two vectors

A join's evidence speaks of the list of its operands' shapes, so the list cannot be rewritten under it; as a function
of the two vectors (the shapes and the evidence fixed) it can. -/

/-- Two vectors joined along an axis, as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The fold at a buffer as a term of the contents it started from: each operation's result at its own buffer is its
    function's value, at any other buffer what was there; a join is read as a function of its two operands. -/
macro "host_results" : tactic =>
  `(tactic| (simp (disch := decide) only [after_cons, after_nil, cat2_eq,
      nullary_result', unary_result', binary_result', ternary_result', quaternary_result', reshape_result',
      nullary_result_ne', unary_result_ne', binary_result_ne', ternary_result_ne', quaternary_result_ne', reshape_result_ne']))

/-! ## The combine -/

/-- The combine of equal inputs is equal: from valuations that agree at the feed-forward output, at the flattened
    expert ids, at the slot positions and at the keep mask, the two programs' last 22 operations leave equal results. -/
theorem tail_eq (WK : Valuation KernelIdeal.τ KernelIdeal.sig (Elt F)) (WR : Valuation ReferenceIdeal.τ ReferenceIdeal.sig (Elt F))
    (hy : WK (Proc.devRef .tc KernelIdeal.main_v35) = WR (Proc.devRef .tc ReferenceIdeal.main_v38))
    (h0 : WK (Proc.devRef .tc KernelIdeal.main_v0) = WR (Proc.devRef .tc ReferenceIdeal.main_v0))
    (h9 : WK (Proc.devRef .tc KernelIdeal.main_v9) = WR (Proc.devRef .tc ReferenceIdeal.main_v9))
    (h11 : WK (Proc.devRef .tc KernelIdeal.main_v11) = WR (Proc.devRef .tc ReferenceIdeal.main_v11)) :
    after KernelIdeal.Gen.hostOps1 WK (Proc.devRef .tc KernelIdeal.main_v53)
      = after ReferenceIdeal.HostRun.opsTail WR (Proc.devRef .tc ReferenceIdeal.main_v56) := by
  host_results
  rw [hy, h0, h9, h11]
  rfl

/-! ## The dispatch

The kernel program's contents when its launch is entered, against the reference's after its first 48 operations, from
memories that agree on the tokens (argument 0) and on the expert ids (argument 1). -/

/-- The flattened expert ids. -/
theorem pre_v0 (m : (ℓ : Loc KernelIdeal.nD KernelIdeal.τ KernelIdeal.sig) → Buf (Elt F) ℓ) (m' : (ℓ : Loc ReferenceIdeal.nD ReferenceIdeal.τ ReferenceIdeal.sig) → Buf (Elt F) ℓ) (c : Dev KernelIdeal.nD)
    (h1 : m' ((c.tc : Thread ReferenceIdeal.nD ReferenceIdeal.τ).loc ReferenceIdeal.main_arg1) = m ((c.tc : Thread KernelIdeal.nD KernelIdeal.τ).loc KernelIdeal.main_arg1)) :
    KernelIdeal.Gen.V0 m c (Proc.devRef .tc KernelIdeal.main_v0)
      = after ReferenceIdeal.HostRun.opsPre (launchContents m' c) (Proc.devRef .tc ReferenceIdeal.main_v0) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rw [show launchContents m' c (Proc.devRef .tc ReferenceIdeal.main_arg1) = m (c, Proc.devRef .tc KernelIdeal.main_arg1) from h1]
  rfl

/-- The slot position of each token within its expert (zero where the token is dropped). -/
theorem pre_v9 (m : (ℓ : Loc KernelIdeal.nD KernelIdeal.τ KernelIdeal.sig) → Buf (Elt F) ℓ) (m' : (ℓ : Loc ReferenceIdeal.nD ReferenceIdeal.τ ReferenceIdeal.sig) → Buf (Elt F) ℓ) (c : Dev KernelIdeal.nD)
    (h1 : m' ((c.tc : Thread ReferenceIdeal.nD ReferenceIdeal.τ).loc ReferenceIdeal.main_arg1) = m ((c.tc : Thread KernelIdeal.nD KernelIdeal.τ).loc KernelIdeal.main_arg1)) :
    KernelIdeal.Gen.V0 m c (Proc.devRef .tc KernelIdeal.main_v9)
      = after ReferenceIdeal.HostRun.opsPre (launchContents m' c) (Proc.devRef .tc ReferenceIdeal.main_v9) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rw [show launchContents m' c (Proc.devRef .tc ReferenceIdeal.main_arg1) = m (c, Proc.devRef .tc KernelIdeal.main_arg1) from h1]
  rfl

/-- The keep mask, as floats. -/
theorem pre_v11 (m : (ℓ : Loc KernelIdeal.nD KernelIdeal.τ KernelIdeal.sig) → Buf (Elt F) ℓ) (m' : (ℓ : Loc ReferenceIdeal.nD ReferenceIdeal.τ ReferenceIdeal.sig) → Buf (Elt F) ℓ) (c : Dev KernelIdeal.nD)
    (h1 : m' ((c.tc : Thread ReferenceIdeal.nD ReferenceIdeal.τ).loc ReferenceIdeal.main_arg1) = m ((c.tc : Thread KernelIdeal.nD KernelIdeal.τ).loc KernelIdeal.main_arg1)) :
    KernelIdeal.Gen.V0 m c (Proc.devRef .tc KernelIdeal.main_v11)
      = after ReferenceIdeal.HostRun.opsPre (launchContents m' c) (Proc.devRef .tc ReferenceIdeal.main_v11) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rw [show launchContents m' c (Proc.devRef .tc ReferenceIdeal.main_arg1) = m (c, Proc.devRef .tc KernelIdeal.main_arg1) from h1]
  rfl

/-- The launch's first operand: the reference's scattered tokens, narrowed. -/
theorem pre_v30 (m : (ℓ : Loc KernelIdeal.nD KernelIdeal.τ KernelIdeal.sig) → Buf (Elt F) ℓ) (m' : (ℓ : Loc ReferenceIdeal.nD ReferenceIdeal.τ ReferenceIdeal.sig) → Buf (Elt F) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    KernelIdeal.Gen.V m c KernelIdeal.main_v30
      = (truncf .bf16 (after ReferenceIdeal.HostRun.opsPre (launchContents m' c) (Proc.devRef .tc ReferenceIdeal.main_v29) : (⟨KernelIdeal.S8x4096x1024, .f32⟩ : BufTy).Contents (Elt F))
          KernelIdeal.Facts₀.bitsLt_bf16_f32 : (⟨KernelIdeal.S8x4096x1024, .bf16⟩ : BufTy).Contents (Elt F)) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rw [show launchContents m' c (Proc.devRef .tc ReferenceIdeal.main_arg0) = m (c, Proc.devRef .tc KernelIdeal.main_arg0) from h0, show launchContents m' c (Proc.devRef .tc ReferenceIdeal.main_arg1) = m (c, Proc.devRef .tc KernelIdeal.main_arg1) from h1]
  rfl

/-- The launch's second operand: the first weight, narrowed. -/
theorem pre_v31 (m : (ℓ : Loc KernelIdeal.nD KernelIdeal.τ KernelIdeal.sig) → Buf (Elt F) ℓ) (c : Dev KernelIdeal.nD) :
    KernelIdeal.Gen.V m c KernelIdeal.main_v31
      = (truncf .bf16 (m ((c.tc : Thread KernelIdeal.nD KernelIdeal.τ).loc KernelIdeal.main_arg2) : (⟨KernelIdeal.S8x1024x4096, .f32⟩ : BufTy).Contents (Elt F))
          KernelIdeal.Facts₀.bitsLt_bf16_f32 : (⟨KernelIdeal.S8x1024x4096, .bf16⟩ : BufTy).Contents (Elt F)) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results

/-- The launch's fourth operand: the second weight, narrowed. -/
theorem pre_v32 (m : (ℓ : Loc KernelIdeal.nD KernelIdeal.τ KernelIdeal.sig) → Buf (Elt F) ℓ) (c : Dev KernelIdeal.nD) :
    KernelIdeal.Gen.V m c KernelIdeal.main_v32
      = (truncf .bf16 (m ((c.tc : Thread KernelIdeal.nD KernelIdeal.τ).loc KernelIdeal.main_arg4) : (⟨KernelIdeal.S8x4096x1024, .f32⟩ : BufTy).Contents (Elt F))
          KernelIdeal.Facts₀.bitsLt_bf16_f32 : (⟨KernelIdeal.S8x4096x1024, .bf16⟩ : BufTy).Contents (Elt F)) := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results

/-- The launch's third operand: the first bias with a unit slot axis. -/
theorem pre_v33 (m : (ℓ : Loc KernelIdeal.nD KernelIdeal.τ KernelIdeal.sig) → Buf (Elt F) ℓ) (c : Dev KernelIdeal.nD) :
    KernelIdeal.Gen.V m c KernelIdeal.main_v33
      = fun i => shapeCast KernelIdeal.S8x1x4096 (m ((c.tc : Thread KernelIdeal.nD KernelIdeal.τ).loc KernelIdeal.main_arg3) : (⟨KernelIdeal.S8x4096, .f32⟩ : BufTy).Contents (Elt F))
          KernelIdeal.Facts₀.shapeCasts_S8x4096_S8x1x4096 i := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rfl

/-- The launch's fifth operand: the second bias with a unit slot axis. -/
theorem pre_v34 (m : (ℓ : Loc KernelIdeal.nD KernelIdeal.τ KernelIdeal.sig) → Buf (Elt F) ℓ) (c : Dev KernelIdeal.nD) :
    KernelIdeal.Gen.V m c KernelIdeal.main_v34
      = fun i => shapeCast KernelIdeal.S8x1x1024 (m ((c.tc : Thread KernelIdeal.nD KernelIdeal.τ).loc KernelIdeal.main_arg5) : (⟨KernelIdeal.S8x1024, .f32⟩ : BufTy).Contents (Elt F))
          KernelIdeal.Facts₀.shapeCasts_S8x1024_S8x1x1024 i := by
  dsimp only [KernelIdeal.Gen.V, KernelIdeal.Gen.V0]
  simp only [KernelIdeal.Gen.hostOps0, KernelIdeal.Gen.hostOps0_1, KernelIdeal.Gen.hostOps0_2, KernelIdeal.Gen.hostOps0_3, KernelIdeal.Gen.hostOps0_4, KernelIdeal.Gen.hostOps0_5,
    List.flatten_cons, List.flatten_nil, List.append_nil, List.cons_append, List.nil_append]
  host_results
  rfl

end Cert.HostBridge

end
-- ==== Proof.Bridge.lean ====
/-
  The two programs end with the same result.

  Both run the same dispatch — the expert of each token, its slot among that expert's tokens, the keep mask, the
  scatter-add of the kept tokens into [8, 4096, 1024] — and the same combine: the gather of each token's row of
  the layer's output, masked.  Between them the reference applies the layer as two batched products, and the
  kernel lets the 128 grid points of one region each compute a block of it.  The array the combine gathers from
  is the same on both sides (`Cert.Layer.arr_eq_ffnHost` over the region's output, `BlockValue.final`), the
  expert ids, slots and mask are the same host terms of the same arguments, so the combine's result is the same.
-/
import proofs.«115585_j5566277615661_1_alg».proof.Proof.Layer
import proofs.«115585_j5566277615661_1_alg».proof.Proof.RefRun
import proofs.«115585_j5566277615661_1_alg».proof.Proof.HostBridge

noncomputable section

namespace Cert.Bridge

open Idealize.ShloMosaic Idealize.ShloMosaic.TcCoe Idealize.SL.Sem Idealize.ShloMosaic.ValueIdx Idealize.ShloMosaic.StableHlo

/-- The kernel's result buffer after its combine is the reference's result buffer after its whole line, from
    memories that agree on the six arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs (Cert.KernelIdeal.Gen.dats m) 0 (Cert.KernelIdeal.Gen.V0 m) [Cert.KernelIdeal.Gen.hostOps1] c Cert.KernelIdeal.main_v53
      = after (Cert.ReferenceIdeal.HostRun.ops (F := Ideal)) (launchContents m' c) (Proc.devRef .tc Cert.ReferenceIdeal.main_v56) := by
  unfold Pipeline.afterTail₀
  rw [Cert.ReferenceIdeal.HostRun.after_split]
  refine Cert.HostBridge.tail_eq _ _ ?_ ?_ ?_ ?_
  · -- the array the combine gathers from
    rw [Cert.ReferenceIdeal.HostRun.mid_v38, Cert.ReferenceIdeal.HostRun.pre_arg2, Cert.ReferenceIdeal.HostRun.pre_arg3,
      Cert.ReferenceIdeal.HostRun.pre_arg4, Cert.ReferenceIdeal.HostRun.pre_arg5]
    refine ((Pipeline.withArrays_arr Cert.KernelIdeal.spec0 Cert.KernelIdeal.Gen.launch0.win.arr_inj c _ _ 5).trans
      (Cert.KernelIdeal.BlockValue.final m c)).trans ?_
    unfold Cert.KernelIdeal.BlockValue.G
    rw [Cert.HostBridge.pre_v30 m m' c h0 h1, Cert.HostBridge.pre_v31 m c, Cert.HostBridge.pre_v32 m c,
      Cert.HostBridge.pre_v33 m c, Cert.HostBridge.pre_v34 m c]
    show _ = Cert.ReferenceIdeal.HostFfn.ffnHost (F := Ideal) _
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
    rw [h2, h3, h4, h5]
    exact Cert.Layer.arr_eq_ffnHost _ _ _ _ _ _ _ (fun e j => Cert.Layer.bias1 _ _ e j) (fun e q => Cert.Layer.bias2 _ _ e q)
  · -- the expert ids
    rw [Cert.ReferenceIdeal.HostRun.mid_v0]
    exact (Pipeline.withArrays_of_ne _ c _ _ Cert.KernelIdeal.main_v0 (by decide)).trans (Cert.HostBridge.pre_v0 m m' c h1)
  · -- the slots
    rw [Cert.ReferenceIdeal.HostRun.mid_v9]
    exact (Pipeline.withArrays_of_ne _ c _ _ Cert.KernelIdeal.main_v9 (by decide)).trans (Cert.HostBridge.pre_v9 m m' c h1)
  · -- the keep mask
    rw [Cert.ReferenceIdeal.HostRun.mid_v11]
    exact (Pipeline.withArrays_of_ne _ c _ _ Cert.KernelIdeal.main_v11 (by decide)).trans (Cert.HostBridge.pre_v11 m m' c h1)

end Cert.Bridge

end
-- ==== Proof.lean ====
/-
  A mixture-of-experts layer with top-1 routing and a fixed expert capacity: each token's expert id gives, by a
  running count over the tokens, the token's slot among its expert's tokens; tokens beyond the capacity are
  dropped by a 0/1 weight; the kept tokens are scatter-added into a [8 experts, 4096 slots, 1024 features] array;
  each expert applies `y = max (x · W1 + b1, 0) · W2 + b2` to its slots; each token gathers its row back, masked.

  The kernel computes the per-expert layer in one region of 8 · 16 grid points — point (e, s) the 256 slots
  `s · 256 …` of expert `e`, as two matrix products into zero accumulators with the operands rounded to half
  precision — between the same dispatch and combine the reference runs; the reference computes the layer as two
  batched products.  At the ideal values rounding is the identity and each product is the plain sum over its
  contracted axis, so the two programs are one function of the arguments: no law of the extended reals beyond
  `0 + s = s` joins them, and the precondition (finite inputs) is never opened.

  The three frames: the two kernel programs' are the generated frame certificates; the reference's is its run
  (the straight line of its 81 host operations) with the result dropped.  The idealization rewrote nothing.
-/
import proofs.«115585_j5566277615661_1_alg».proof.Defs
import proofs.«115585_j5566277615661_1_alg».proof.Proof.Gen.Kernel
import proofs.«115585_j5566277615661_1_alg».proof.Proof.Gen.Kernel.Frame
import proofs.«115585_j5566277615661_1_alg».proof.Proof.Gen.KernelIdeal
import proofs.«115585_j5566277615661_1_alg».proof.Proof.Gen.KernelIdeal.Frame
import proofs.«115585_j5566277615661_1_alg».proof.Proof.Gen.ReferenceIdeal
import proofs.«115585_j5566277615661_1_alg».proof.Proof.Gen.Pre_finite_inputs
import proofs.«115585_j5566277615661_1_alg».proof.Proof.RefRun
import proofs.«115585_j5566277615661_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: no operation writes an argument. -/
theorem frame_ri : Cert.frame_ReferenceIdeal := fun m ρ _ =>
  (θ_run Cert.ReferenceIdeal.defs _ _).mono (fun _ h c =>
      ⟨(h c Cert.ReferenceIdeal.main_arg0).trans (Cert.ReferenceIdeal.HostRun.after_arg0 _),
       (h c Cert.ReferenceIdeal.main_arg1).trans (Cert.ReferenceIdeal.HostRun.after_arg1 _),
       (h c Cert.ReferenceIdeal.main_arg2).trans (Cert.ReferenceIdeal.HostRun.after_arg2 _),
       (h c Cert.ReferenceIdeal.main_arg3).trans (Cert.ReferenceIdeal.HostRun.after_arg3 _),
       (h c Cert.ReferenceIdeal.main_arg4).trans (Cert.ReferenceIdeal.HostRun.after_arg4 _),
       (h c Cert.ReferenceIdeal.main_arg5).trans (Cert.ReferenceIdeal.HostRun.after_arg5 _)⟩)
    (Cert.ReferenceIdeal.HostRun.run (F := Ideal) m ρ)

/-- The ideal pass rewrote no operation. -/
theorem preserves : Cert.preserves_Kernel_KernelIdeal := trivial

/-- Both programs run, and end with the reference's result: the kernel's by its frame run, whose post names the
    combine's result over the region's output array (`Cert.Bridge.result_eq`), the reference's by its run. -/
theorem algebraic : Cert.algebraic_KernelIdeal_ReferenceIdeal := by
  intro m ρ m' ρ' _ hagree
  refine ⟨fun c => StableHlo.after (Cert.ReferenceIdeal.HostRun.ops (F := Ideal)) (StableHlo.launchContents m' c)
    (Proc.devRef .tc Cert.ReferenceIdeal.main_v56), ?_, ?_⟩
  · refine (θ_run Cert.KernelIdeal.defs _ _).mono (fun r h c => ?_) (Cert.KernelIdeal.Gen.run_main m ρ)
    obtain ⟨h0, h1, h2, h3, h4, h5⟩ := hagree c
    exact ⟨((h c).2 Cert.KernelIdeal.main_v53 (Pipeline.mem_restRefs_of Cert.KernelIdeal.main_v53 (by decide) (by decide))).trans
        (Cert.Bridge.result_eq m m' c h0 h1 h2 h3 h4 h5),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c),
      ((h c).2 Cert.KernelIdeal.main_arg5 (Pipeline.mem_restRefs_of Cert.KernelIdeal.main_arg5 (by decide) (by decide))).trans
        (Cert.KernelIdeal.Gen.W_main_arg5 m (Cert.KernelIdeal.Gen.dats m) c)⟩
  · refine (θ_run Cert.ReferenceIdeal.defs _ _).mono (fun r h c =>
      ⟨h c Cert.ReferenceIdeal.main_v56,
       (h c Cert.ReferenceIdeal.main_arg0).trans (Cert.ReferenceIdeal.HostRun.after_arg0 _),
       (h c Cert.ReferenceIdeal.main_arg1).trans (Cert.ReferenceIdeal.HostRun.after_arg1 _),
       (h c Cert.ReferenceIdeal.main_arg2).trans (Cert.ReferenceIdeal.HostRun.after_arg2 _),
       (h c Cert.ReferenceIdeal.main_arg3).trans (Cert.ReferenceIdeal.HostRun.after_arg3 _),
       (h c Cert.ReferenceIdeal.main_arg4).trans (Cert.ReferenceIdeal.HostRun.after_arg4 _),
       (h c Cert.ReferenceIdeal.main_arg5).trans (Cert.ReferenceIdeal.HostRun.after_arg5 _)⟩)
      (Cert.ReferenceIdeal.HostRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
